-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : FVec F S128x256 .f32) (main_arg3 : FVec F S256 .f32) (main_arg4 : FVec F S256x1 .f32) (main_arg5 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16384x128 : Shape := ⟨2, ![16384, 128]⟩
abbrev S16384x16384 : Shape := ⟨2, ![16384, 16384]⟩
abbrev S128x256 : Shape := ⟨2, ![128, 256]⟩
abbrev S256 : Shape := ⟨1, ![256]⟩
abbrev S256x1 : Shape := ⟨2, ![256, 1]⟩
abbrev S1 : Shape := ⟨1, ![1]⟩
abbrev S16384x256 : Shape := ⟨2, ![16384, 256]⟩
abbrev S1x256 : Shape := ⟨2, ![1, 256]⟩
abbrev S16384x1 : Shape := ⟨2, ![16384, 1]⟩
abbrev S2048x1024 : Shape := ⟨2, ![2048, 1024]⟩
abbrev S1024x256 : Shape := ⟨2, ![1024, 256]⟩
abbrev S2048x1 : Shape := ⟨2, ![2048, 1]⟩
abbrev S2048x256 : Shape := ⟨2, ![2048, 256]⟩
abbrev S1x1 : Shape := ⟨2, ![1, 1]⟩
abbrev S1024x2048 : Shape := ⟨2, ![1024, 2048]⟩
abbrev S1024x1 : Shape := ⟨2, ![1024, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16384x256, .f32⟩
  | .hbm, ⟨7, _⟩ => ⟨S16384x256, .bf16⟩
  | .hbm, ⟨8, _⟩ => ⟨S1x256, .f32⟩
  | .hbm, ⟨9, _⟩ => ⟨S16384x1, .f32⟩
  | .hbm, ⟨10, _⟩ => ⟨S1x1, .f32⟩
  | .hbm, ⟨11, _⟩ => ⟨S16384x1, .f32⟩
  | .local _ .vmem, ⟨0, _⟩ => ⟨S2048x1024, .f32⟩
  | .local _ .vmem, ⟨1, _⟩ => ⟨S2048x1024, .f32⟩
  | .local _ .vmem, ⟨2, _⟩ => ⟨S1024x256, .bf16⟩
  | .local _ .vmem, ⟨3, _⟩ => ⟨S1024x256, .bf16⟩
  | .local _ .vmem, ⟨4, _⟩ => ⟨S1x256, .f32⟩
  | .local _ .vmem, ⟨5, _⟩ => ⟨S256x1, .f32⟩
  | .local _ .vmem, ⟨6, _⟩ => ⟨S2048x1, .f32⟩
  | .local _ .vmem, ⟨7, _⟩ => ⟨S2048x1, .f32⟩
  | .local _ .vmem, ⟨8, _⟩ => ⟨S2048x256, .f32⟩
  | .local _ .vmem, ⟨9, _⟩ => ⟨S1024x2048, .f32⟩
  | .local _ .vmem, ⟨10, _⟩ => ⟨S1024x2048, .f32⟩
  | .local _ .vmem, ⟨11, _⟩ => ⟨S2048x1, .f32⟩
  | .local _ .vmem, ⟨12, _⟩ => ⟨S2048x1, .f32⟩
  | .local _ .vmem, ⟨13, _⟩ => ⟨S1x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  inb_S2048x1_S2048x1_0_0 : ∀ a, (![0, 0] : Fin 2 → Nat) a + S2048x1.size a ≤ S2048x1.size a
  h_S2048x1 : 0 < S2048x1.numel
  shapeCasts_S1_S1x1 : S1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S16384x128_S128x256_S16384x256_1_0_0_1_n_n_wf : DotDims.WF S16384x128 S128x256 S16384x256 [1] [0] [0] [1] [] []
  dot_S2048x1024_S1024x256_S2048x256_1_0_0_1_n_n_wf : DotDims.WF S2048x1024 S1024x256 S2048x256 [1] [0] [0] [1] [] []
  dot_S2048x256_S256x1_S2048x1_1_0_0_1_n_n_wf : DotDims.WF S2048x256 S256x1 S2048x1 [1] [0] [0] [1] [] []
  dot_S1024x2048_S2048x1_S1024x1_1_0_0_1_n_n_wf : DotDims.WF S1024x2048 S2048x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S16384x1.size a
  hwx0_4 : ∀ i : grid0.Coords, EltTy.bits .f32 = 32 ∨ (Rect.block (s := S16384x1) S2048x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S16384x1.size a
  hwx1_3 : ∀ i : grid1.Coords, EltTy.bits .f32 = 32 ∨ (Rect.block (s := S16384x1) S1024x1.size (cc1_transform_3 i) (hinb1_3 i)).WholeWords (EltTy.packing .f32)

variable [Facts₀]

def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x256 : Shape := ⟨2, ![128, 256]⟩
abbrev S256 : Shape := ⟨1, ![256]⟩
abbrev S256x1 : Shape := ⟨2, ![256, 1]⟩
abbrev S1 : Shape := ⟨1, ![1]⟩
abbrev S16384x256 : Shape := ⟨2, ![16384, 256]⟩
abbrev S1x256 : Shape := ⟨2, ![1, 256]⟩
abbrev S_ : Shape := ⟨0, ![]⟩
abbrev S16384x1 : Shape := ⟨2, ![16384, 1]⟩
abbrev S1x1 : Shape := ⟨2, ![1, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16384x256, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .f32⟩
  | .hbm, ⟨14, _⟩ => ⟨S16384x1, .f32⟩
  | .hbm, ⟨15, _⟩ => ⟨S16384x1, .f32⟩
  | .hbm, ⟨16, _⟩ => ⟨S1x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x128_S128x256_S16384x256_1_0_0_1_n_n_wf : DotDims.WF S16384x128 S128x256 S16384x256 [1] [0] [0] [1] [] []
  dot_S16384x16384_S16384x256_S16384x256_1_0_0_1_n_n_wf : DotDims.WF S16384x16384 S16384x256 S16384x256 [1] [0] [0] [1] [] []
  dot_S16384x256_S256x1_S16384x1_1_0_0_1_n_n_wf : DotDims.WF S16384x256 S256x1 S16384x1 [1] [0] [0] [1] [] []
  dot_S16384x16384_S16384x1_S16384x1_1_0_0_1_n_n_wf : DotDims.WF S16384x16384 S16384x1 S16384x1 [1] [0] [0] [1] [] []

variable [Facts₀]

def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S16384x16384_S16384x1_S16384x1_1_0_0_1_n_n : DotDims S16384x16384 S16384x1 S16384x1 where
  lhsContracting := [1]
  rhsContracting := [0]
  lhsNonContracting := [0]
  rhsNonContracting := [1]
  lhsBatch := []
  rhsBatch := []
  wf := dot_S16384x16384_S16384x1_S16384x1_1_0_0_1_n_n_wf

class Facts : Prop extends Facts₀ where

variable [Facts]
-- ==== Proof.WordFirstLayerCases.lean ====
/-
  (The word-level program: the same text as for the idealized one, the float type a parameter throughout.)
  The first layer's kernel, `acc += adj_block · z_block` over a grid of 8 row blocks × 16 column blocks, with the
  accumulator zeroed at column block 0 and, at column block 15, `relu (acc + b1) · W2` stored into the output block.
  What its three control cases share: the two branch conditions in closed form over the grid (a point `t` is row block
  `t / 16`, column block `t % 16`), where the output window is idle and where it is written back, names for the
  staging memrefs at a point, each window's block of its array, and the region's invariant with the accumulator's
  buffer set apart from the other scoped buffers.
-/
import proofs.«157115_j38354057954042_2_alg».proof.Proof.Gen.Kernel.Launch
import proofs.«157115_j38354057954042_2_alg».proof.Proof.Gen.Kernel.Skeleton
import proofs.«157115_j38354057954042_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is the entry contents and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is column block 0": the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is column block 15": the output block is computed and stored. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last column block nothing is stored into the output window and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column block the output window is stored into. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S2048x1 .f32 := (Memref.whole cc0_stg4_0 : Memref sig .tc .vmem S2048x1 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one grid point to the next. -/
abbrev scM0_0 : Memref sig .tc .vmem S2048x256 .f32 := Memref.whole cc0_scratch0
abbrev VS0_0 : View sig .tc .vmem S2048x256 .f32 := scM0_0.view

/-- The core's other scoped buffers (the second kernel's staging buffers and accumulator), each whole at some contents:
    the first layer's kernel never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant with the accumulator owned at some contents, set apart from the other scoped buffers. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.L1

end
-- ==== Proof.WordFirstLayerRunFirst.lean ====
/-
  (The word-level program: the same text as for the idealized one, the float type a parameter throughout.)
  The first layer's kernel at column block 0 of a row block: the accumulator is zeroed, then the first partial
  product `adj_block · z_block` is added and stored. The output block is not touched.
-/
import proofs.«157115_j38354057954042_2_alg».proof.Proof.WordFirstLayerCases

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column block 0 (and not 15): whatever the accumulator held, it is zeroed, the partial product is added, and the sum is stored; the output block is handed back untouched. The pieces the accumulator ends with are found by the run. -/
noncomputable def kernelRun0_A (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .bf16) (x2 : Vec F S1x256 .f32) (x3 : Vec F S256x1 .f32) :
    Σ' (L4 : List (View.Piece (Elt F) S2048x1 .f32)), { LS0 : List (View.Piece (Elt F) S2048x256 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer1_kernel i arg2 harg2 arg3 harg3 arg4 harg4 arg5 harg5 arg6 harg6 arg7 harg7) K } := by
  refine ⟨[], ?_, fun xi4 E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.L1

end
-- ==== Proof.WordFirstLayerRunInner.lean ====
/-
  (The word-level program: the same text as for the idealized one, the float type a parameter throughout.)
  The first layer's kernel at a column block strictly between 0 and 15: the partial product `adj_block · z_block`
  is added to the accumulator. The output block is not touched.
-/
import proofs.«157115_j38354057954042_2_alg».proof.Proof.WordFirstLayerCases

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a column block that is neither 0 nor 15: the accumulator, entered at `xs0`, is added to and stored; the output block is handed back untouched. The pieces the accumulator ends with are found by the run. -/
noncomputable def kernelRun0_B (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .bf16) (x2 : Vec F S1x256 .f32) (x3 : Vec F S256x1 .f32) (xs0 : Vec F S2048x256 .f32) :
    Σ' (L4 : List (View.Piece (Elt F) S2048x1 .f32)), { LS0 : List (View.Piece (Elt F) S2048x256 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer1_kernel i arg2 harg2 arg3 harg3 arg4 harg4 arg5 harg5 arg6 harg6 arg7 harg7) K } := by
  refine ⟨[], ?_, fun xi4 E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.L1

end
-- ==== Proof.WordFirstLayerRunLast.lean ====
/-
  (The word-level program: the same text as for the idealized one, the float type a parameter throughout.)
  The first layer's kernel at column block 15: the last partial product is added to the accumulator, and the output
  block `relu (acc + b1) · W2` is stored.
-/
import proofs.«157115_j38354057954042_2_alg».proof.Proof.WordFirstLayerCases

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column block 15 (and not 0): the accumulator, entered at `xs0`, is added to and stored; then `relu (acc + b1) · W2`
    is stored into the output block, whatever it held. The pieces each buffer ends with are found by the run. -/
noncomputable def kernelRun0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .bf16) (x2 : Vec F S1x256 .f32) (x3 : Vec F S256x1 .f32) (xs0 : Vec F S2048x256 .f32) :
    Σ' (L4 : List (View.Piece (Elt F) S2048x1 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer1_kernel i arg2 harg2 arg3 harg3 arg4 harg4 arg5 harg5 arg6 harg6 arg7 harg7) K } := by
  refine ⟨?_, ?_, fun E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.L1

end
-- ==== Proof.WordFirstLayerAccumulator.lean ====
/-
  (The word-level program: the same text as for the idealized one, the float type a parameter throughout.)
  The first layer's accumulator after each grid point, as an explicit recursion over the kernel's named payloads:
  at column block 0 of a row block it is `0 + adj_block · z_block`; at every later column block it is what the point
  before left plus that point's `adj_block · z_block`. The output block stored at column block 15 is
  `relu (acc + b1) · W2` of the accumulator after that point's addition.
-/
import proofs.«157115_j38354057954042_2_alg».proof.Proof.WordFirstLayerCases

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after point `n`. -/
def acc0 (c : Dev nD) : (n : ℕ) → n < cfg0.N → Vec F S2048x256 .f32
  | 0, hn => k0_pay2 (iblk0 V c 0 ⟨0, hn⟩) (k0_pay1 (F := F)) (iblk0 V c 1 ⟨0, hn⟩)
  | n + 1, hn =>
    if (n + 1) % 16 = 0 then k0_pay2 (iblk0 V c 0 ⟨n + 1, hn⟩) (k0_pay1 (F := F)) (iblk0 V c 1 ⟨n + 1, hn⟩)
    else k0_pay2 (iblk0 V c 0 ⟨n + 1, hn⟩) (acc0 c n (Nat.lt_of_succ_lt hn)) (iblk0 V c 1 ⟨n + 1, hn⟩)

/-- At column block 0 the accumulator restarts from zero. -/
theorem acc0_first (c : Dev nD) (t : Fin cfg0.N) (h : t.val % 16 = 0) :
    acc0 V c t.val t.isLt = k0_pay2 (iblk0 V c 0 t) (k0_pay1 (F := F)) (iblk0 V c 1 t) := by
  obtain ⟨n, hn⟩ := t
  cases n with
  | zero => rfl
  | succ n => exact if_pos h

/-- At a later column block it adds to what the point before left. -/
theorem acc0_next (c : Dev nD) (t : Fin cfg0.N) (h : ¬t.val % 16 = 0) :
    acc0 V c t.val t.isLt = k0_pay2 (iblk0 V c 0 t) (acc0 V c (t.val - 1) (Nat.lt_of_le_of_lt (Nat.sub_le _ _) t.isLt)) (iblk0 V c 1 t) := by
  obtain ⟨n, hn⟩ := t
  cases n with
  | zero => exact absurd (Nat.zero_mod _) h
  | succ n => exact if_neg h

/-- The output block stored at a point of column block 15. -/
def out0 (c : Dev nD) (t : Fin cfg0.N) : Vec F S2048x1 .f32 :=
  k0_pay3 (acc0 V c t.val t.isLt) (iblk0 V c 2 t) (iblk0 V c 3 t)

end Cert.Kernel.L1

end
-- ==== Proof.WordFirstLayerData.lean ====
/-
  (The word-level program: the same text as for the idealized one, the float type a parameter throughout.)
  The first layer's kernel over its whole grid: what the accumulator and the output block hold after every point
  (`acc0`, `out0`), as the region's invariant and the pipeline's proof data, and the proof that the body, run at any
  point on what the pipeline hands it, leaves exactly that — by cases on the column block (0, inner, 15), each case the
  body's run with the pieces it found read back as the named payloads.
-/
import proofs.«157115_j38354057954042_2_alg».proof.Proof.WordFirstLayerRunFirst
import proofs.«157115_j38354057954042_2_alg».proof.Proof.WordFirstLayerRunInner
import proofs.«157115_j38354057954042_2_alg».proof.Proof.WordFirstLayerRunLast
import proofs.«157115_j38354057954042_2_alg».proof.Proof.WordFirstLayerAccumulator
import Idealize.ShloMosaic.Lib.Pipeline.Value

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block rectangle. -/
theorem hz2 : (![0, 0] : Fin 2 → ℕ) = fun _ => 0 := by funext a; fin_cases a <;> rfl

/-! ## What each case leaves: the found pieces cover their buffers, and read back as the named payloads -/

theorem scover0_A (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : cond0_0 i) (hc1 : ¬cond0_1 i) (x0 : Vec F S2048x1024 .f32) (x1 : Vec F S1024x256 .bf16) (x2 : Vec F S1x256 .f32) (x3 : Vec F S256x1 .f32) (y : S2048x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x256.size (by sl_kernel_rfl) y

/-- At column block 0 the accumulator ends at `0 + adj_block · z_block` (the payloads' names for it). -/
theorem sacc0_A (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : cond0_0 i) (hc1 : ¬cond0_1 i) (x0 : Vec F S2048x1024 .f32) (x1 : Vec F S1024x256 .bf16) (x2 : Vec F S1x256 .f32) (x3 : Vec F S256x1 .f32) :
    VS0_0.read (Elt F) (VS0_0.writes (Elt F) VS0_0.junk (kernelRun0_A c i arg2 harg2 arg3 harg3 arg4 harg4 arg5 harg5 arg6 harg6 arg7 harg7 hc0 hc1 x0 x1 x2 x3).2.1) = k0_pay2 x0 (k0_pay1 (F := F)) x1 := by
  rw [View.read_writes_eq_canon _ _ _ (scover0_A c i arg2 harg2 arg3 harg3 arg4 harg4 arg5 harg5 arg6 harg6 arg7 harg7 hc0 hc1 x0 x1 x2 x3)]
  unfold kernelRun0_A; dsimp only; sl_unfold_words
  rw [View.canon_cons_unit_zero hz2]
  simp only [View.readAt_eq_ld, harg2.read_unread, harg3.read_unread, View.ld_unit_zero (S := S2048x1024) hz2, View.ld_unit_zero (S := S1024x256) hz2]
  rw [View.readCov_unit_zero (S := S2048x256) arg7.view hz2]

theorem scover0_B (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : ¬cond0_1 i) (x0 : Vec F S2048x1024 .f32) (x1 : Vec F S1024x256 .bf16) (x2 : Vec F S1x256 .f32) (x3 : Vec F S256x1 .f32) (xs0 : Vec F S2048x256 .f32) (y : S2048x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2048x256.size (by sl_kernel_rfl) y

/-- At an inner column block the accumulator ends at what it held plus `adj_block · z_block`. -/
theorem sacc0_B (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : ¬cond0_1 i) (x0 : Vec F S2048x1024 .f32) (x1 : Vec F S1024x256 .bf16) (x2 : Vec F S1x256 .f32) (x3 : Vec F S256x1 .f32) (xs0 : Vec F S2048x256 .f32) :
    VS0_0.read (Elt F) (VS0_0.writes (Elt F) VS0_0.junk (kernelRun0_B c i arg2 harg2 arg3 harg3 arg4 harg4 arg5 harg5 arg6 harg6 arg7 harg7 hc0 hc1 x0 x1 x2 x3 xs0).2.1) = k0_pay2 x0 xs0 x1 := by
  rw [View.read_writes_eq_canon _ _ _ (scover0_B c i arg2 harg2 arg3 harg3 arg4 harg4 arg5 harg5 arg6 harg6 arg7 harg7 hc0 hc1 x0 x1 x2 x3 xs0)]
  unfold kernelRun0_B; dsimp only; sl_unfold_words
  rw [View.canon_unit_zero hz2]
  simp only [View.readAt_eq_ld, harg2.read_unread, harg3.read_unread, harg7.read_unread, View.ld_unit_zero (S := S2048x1024) hz2, View.ld_unit_zero (S := S1024x256) hz2, View.ld_unit_zero (S := S2048x256) hz2]

theorem scover0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S1024x256 .bf16) (x2 : Vec F S1x256 .f32) (x3 : Vec F S256x1 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x256.size (by sl_kernel_rfl) y

/-- At column block 15 the accumulator ends at what it held plus `adj_block · z_block`, -/
theorem sacc0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S1024x256 .bf16) (x2 : Vec F S1x256 .f32) (x3 : Vec F S256x1 .f32) (xs0 : Vec F S2048x256 .f32) :
    VS0_0.read (Elt F) (VS0_0.writes (Elt F) VS0_0.junk (kernelRun0_C c i arg2 harg2 arg3 harg3 arg4 harg4 arg5 harg5 arg6 harg6 arg7 harg7 hc0 hc1 x0 x1 x2 x3 xs0).2.1) = k0_pay2 x0 xs0 x1 := by
  rw [View.read_writes_eq_canon _ _ _ (scover0_C c i arg2 harg2 arg3 harg3 arg4 harg4 arg5 harg5 arg6 harg6 arg7 harg7 hc0 hc1 x0 x1 x2 x3 xs0)]
  unfold kernelRun0_C; dsimp only; sl_unfold_words
  rw [View.canon_unit_zero hz2]
  simp only [View.readAt_eq_ld, harg2.read_unread, harg3.read_unread, harg7.read_unread, View.ld_unit_zero (S := S2048x1024) hz2, View.ld_unit_zero (S := S1024x256) hz2, View.ld_unit_zero (S := S2048x256) hz2]

theorem cover0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S1024x256 .bf16) (x2 : Vec F S1x256 .f32) (x3 : Vec F S256x1 .f32) (xs0 : Vec F S2048x256 .f32) (y : S2048x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x1.size (by sl_kernel_rfl) y

/-- and the output block at `relu (acc + b1) · W2` of that accumulator. -/
theorem sout0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S1024x256 .bf16) (x2 : Vec F S1x256 .f32) (x3 : Vec F S256x1 .f32) (xs0 : Vec F S2048x256 .f32) :
    VO0_4.read (Elt F) (VO0_4.writes (Elt F) VO0_4.junk (kernelRun0_C c i arg2 harg2 arg3 harg3 arg4 harg4 arg5 harg5 arg6 harg6 arg7 harg7 hc0 hc1 x0 x1 x2 x3 xs0).1) = k0_pay3 (k0_pay2 x0 xs0 x1) x2 x3 := by
  rw [View.read_writes_eq_canon _ _ _ (cover0_C c i arg2 harg2 arg3 harg3 arg4 harg4 arg5 harg5 arg6 harg6 arg7 harg7 hc0 hc1 x0 x1 x2 x3 xs0)]
  unfold kernelRun0_C; dsimp only; sl_unfold_words
  rw [View.canon_unit_zero hz2]
  simp only [View.readAt_eq_ld, harg2.read_unread, harg3.read_unread, harg4.read_unread, harg5.read_unread, harg7.read_unread, View.ld_unit_zero (S := S2048x1024) hz2, View.ld_unit_zero (S := S1024x256) hz2, View.ld_unit_zero (S := S2048x256) hz2, View.ld_unit_zero (S := S1x256) hz2, View.ld_unit_zero (S := S256x1) hz2]
  rw [View.readCov_unit_zero (S := S2048x256) arg7.view hz2]

/-! ## The region's invariant: the accumulator at what the point before left -/

/-- Before point `n`: at the region's entry every scoped buffer at anything; afterwards the accumulator at `acc0` of the
    point before, the core's other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ others0 c) ∗ (∃ r, prngReg c r)) := by
  cases n with
  | zero => exact absurd rfl hz
  | succ n => rfl

/-! ## The pipeline's proof data -/

/-- The arrays as the region finds them; after the body at point `t` each input's buffer at its block and the output's at
    `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which column block the point is
    in; that case's run applies; the invariant hands over the accumulator at what the point before left (at anything at
    the region's first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val % 16 = 15
  · -- column block 15
    have h0 : ¬t.val % 16 = 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    have hz : t.val ≠ 0 := by omega
    unfold out0
    rw [acc0_next V c t h0]
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hoth Hg]
    · isplitl [HS0 Hoth]
      · isplitl [HS0]
        · unfold owns; iexists _; isplitr
          swap; · iexact HS0
          ipureintro
          exact (View.read_writes_of_cover _ _ _ _ _ (scover0_C c _ _ _ _ _ _ _ _ _ _ _ _ _ _ _ _ _ _ _ _)).trans (sacc0_C c _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ _ _ _ (cover0_C c _ _ _ _ _ _ _ _ _ _ _ _ _ _ _ _ _ _ _ _)).trans (sout0_C c _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    by_cases h0 : t.val % 16 = 0
    · -- column block 0
      rw [acc0_first V c t h0]
      have hrun := (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)).2.2
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply (hrun _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro
              exact (View.read_writes_of_cover _ _ _ _ _ (scover0_A c _ _ _ _ _ _ _ _ _ _ _ _ _ _ _ _ _ _ _)).trans (sacc0_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply (hrun _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro
              exact (View.read_writes_of_cover _ _ _ _ _ (scover0_A c _ _ _ _ _ _ _ _ _ _ _ _ _ _ _ _ _ _ _)).trans (sacc0_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
    · -- an inner column block
      have hz : t.val ≠ 0 := fun e => h0 (by rw [e])
      rw [acc0_next V c t h0]
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover0_B c _ _ _ _ _ _ _ _ _ _ _ _ _ _ _ _ _ _ _ _)).trans (sacc0_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Cert.Kernel.L1

end
-- ==== Proof.WordSecondLayerCases.lean ====
/-
  (The word-level program: the same text as for the idealized one, the float type a parameter throughout.)
  The second layer's kernel, `acc += adj_block · z_block` over a grid of 16 row blocks × 8 column blocks, with the
  accumulator zeroed at column block 0 and, at column block 7, `relu (acc + b2)` stored into the output block.
  What its three control cases share: the two branch conditions in closed form over the grid (a point `t` is row block
  `t / 8`, column block `t % 8`), where the output window is idle and where it is written back, names for the
  staging memrefs at a point, each window's block of its array, the accumulator's contents after each point as a
  recursion over the grid points, and the region's invariant with the accumulator's buffer set apart from the other
  scoped buffers.
-/
import proofs.«157115_j38354057954042_2_alg».proof.Proof.Gen.Kernel.Launch
import proofs.«157115_j38354057954042_2_alg».proof.Proof.Gen.Kernel.Skeleton
import proofs.«157115_j38354057954042_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is the entry contents and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The accumulator after point `n`: at column block 0 the partial product added to the zero block, elsewhere added to
    what the point before left. -/
def acc1 (c : Dev nD) : (n : ℕ) → n < cfg1.N → Vec F S1024x1 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- At column block 0 the accumulator restarts from the zero block. -/
theorem acc1_first (c : Dev nD) (t : Fin cfg1.N) (h : t.val % 8 = 0) :
    acc1 V c t.val t.isLt = k1_pay2 (iblk1 V c 0 t) (iblk1 V c 1 t) k1_pay1 := by
  obtain ⟨n, hn⟩ := t
  cases n with
  | zero => rfl
  | succ n => exact (if_pos h).trans rfl

/-- At a later column block it continues from what the point before left. -/
theorem acc1_next (c : Dev nD) (t : Fin cfg1.N) (h : t.val % 8 ≠ 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The body's two branch conditions -/

/-- "This is column block 0": the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is column block 7": the output block is computed and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last column block nothing is stored into the output window and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column block the output window is stored into. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x1 .f32 := (Memref.whole cc1_stg3_0 : Memref sig .tc .vmem S1024x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one grid point to the next. -/
abbrev scM1_0 : Memref sig .tc .vmem S1024x1 .f32 := Memref.whole cc1_scratch0
abbrev VS1_0 : View sig .tc .vmem S1024x1 .f32 := scM1_0.view

/-- Every store and load of the body is at offset zero of its buffer. -/
theorem hz : (![0, 0] : Fin 2 → Nat) = fun _ => 0 := funext fun a => by fin_cases a <;> rfl

/-- The core's other scoped buffers (the first kernel's staging buffers and accumulator), each whole at some contents:
    the second layer's kernel never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region's invariant with the accumulator owned at some contents, set apart from the other scoped buffers. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA others1; rw [scopedRest1_eq]; simp only [scM1_0, owns_whole]
  refine BI.Entails.antisymm (show (_ : sProp 𝕄) ⊢ _ from ?_) (show (_ : sProp 𝕄) ⊢ _ from ?_)
  · iintro ⟨⟨A1, A2, A3, A4, A5, A6, A7, A8, A9, HS⟩, Hg⟩
    isplitr [Hg]
    · isplitr [HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        iexact A9
      · iexact HS
    · iexact Hg
  · iintro ⟨⟨⟨A1, A2, A3, A4, A5, A6, A7, A8, A9⟩, HS⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact HS
    · iexact Hg

end Cert.Kernel.L2

end
-- ==== Proof.WordSecondLayerRunFirst.lean ====
/-
  (The word-level program: the same text as for the idealized one, the float type a parameter throughout.)
  The second layer's kernel at column block 0: the accumulator is zeroed, the zero block is read back, and the first
  partial product is added to it and stored. Nothing is stored into the output block.
-/
import proofs.«157115_j38354057954042_2_alg».proof.Proof.WordSecondLayerCases

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column block 0 (and not 7): whatever the accumulator held, it is zeroed, and the partial product of this point's
    blocks is added and stored; the output window's buffer, at `xi3`, is handed back untouched. The pieces the
    accumulator ends with are found by the run. -/
noncomputable def kernelRun1_A (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x2048 .f32) (x1 : Vec F S2048x1 .f32) (x2 : Vec F S1x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer2_kernel i arg2 harg2 arg3 harg3 arg4 harg4 arg5 harg5 arg6 harg6) K } := by
  refine ⟨[], ?_, fun xi3 E K => ?run⟩
  case run =>
    simp only [cc1__gcn_layer2_kernel_eq_skeleton]; unfold cc1__gcn_layer2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.L2

end
-- ==== Proof.WordSecondLayerRunInner.lean ====
/-
  (The word-level program: the same text as for the idealized one, the float type a parameter throughout.)
  The second layer's kernel at a column block that is neither 0 nor 7: the partial product of this point's blocks is
  added to the accumulator and stored. Nothing is stored into the output block.
-/
import proofs.«157115_j38354057954042_2_alg».proof.Proof.WordSecondLayerCases

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a column block that is neither 0 nor 7: the accumulator, entered at `xs0`, is added to and stored; the output
    window's buffer, at `xi3`, is handed back untouched. The pieces the accumulator ends with are found by the run. -/
noncomputable def kernelRun1_B (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x2048 .f32) (x1 : Vec F S2048x1 .f32) (x2 : Vec F S1x1 .f32) (xs0 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer2_kernel i arg2 harg2 arg3 harg3 arg4 harg4 arg5 harg5 arg6 harg6) K } := by
  refine ⟨[], ?_, fun xi3 E K => ?run⟩
  case run =>
    simp only [cc1__gcn_layer2_kernel_eq_skeleton]; unfold cc1__gcn_layer2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.L2

end
-- ==== Proof.WordSecondLayerRunLast.lean ====
/-
  (The word-level program: the same text as for the idealized one, the float type a parameter throughout.)
  The second layer's kernel at column block 7: the last partial product is added to the accumulator, and the output
  block `relu (acc + b2)` is stored.
-/
import proofs.«157115_j38354057954042_2_alg».proof.Proof.WordSecondLayerCases

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column block 7 (and not 0): the accumulator, entered at `xs0`, is added to and stored; then `relu (acc + b2)` is
    stored into the output block, whatever it held. The pieces each buffer ends with are found by the run. -/
noncomputable def kernelRun1_C (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer2_kernel i arg2 harg2 arg3 harg3 arg4 harg4 arg5 harg5 arg6 harg6) K } := by
  refine ⟨?_, ?_, fun E K => ?run⟩
  case run =>
    simp only [cc1__gcn_layer2_kernel_eq_skeleton]; unfold cc1__gcn_layer2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.L2

end
-- ==== Proof.WordSecondLayerData.lean ====
/-
  (The word-level program: the same text as for the idealized one, the float type a parameter throughout.)
  The second layer's kernel, the rest of its half of the frame: what each control case's stores leave in the
  accumulator and in the output block, named by the kernel's payloads; the invariant carried from one grid point to the
  next (the accumulator at its contents after the point before); the proof data of the pipeline; and the body's
  obligation at every grid point.
-/
import proofs.«157115_j38354057954042_2_alg».proof.Proof.WordSecondLayerRunFirst
import proofs.«157115_j38354057954042_2_alg».proof.Proof.WordSecondLayerRunInner
import proofs.«157115_j38354057954042_2_alg».proof.Proof.WordSecondLayerRunLast

set_option maxRecDepth 16384

noncomputable section

namespace Cert.Kernel.L2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## What each case's stores leave -/

/-- At column block 0 the accumulator's stores cover it. -/
theorem scover1_A_0 (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x2048 .f32) (x1 : Vec F S2048x1 .f32) (x2 : Vec F S1x1 .f32) (y : S1024x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x1.size (by sl_kernel_rfl) y

/-- At an inner column block the accumulator's store covers it. -/
theorem scover1_B_0 (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x2048 .f32) (x1 : Vec F S2048x1 .f32) (x2 : Vec F S1x1 .f32) (xs0 : Vec F S1024x1 .f32) (y : S1024x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x1.size (by sl_kernel_rfl) y

/-- At column block 7 the accumulator's store covers it, -/
theorem scover1_C_0 (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) (y : S1024x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x1.size (by sl_kernel_rfl) y

/-- and the output block's store covers it. -/
theorem cover1_C_3 (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) (y : S1024x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x1.size (by sl_kernel_rfl) y

/-- COLUMN BLOCK 0: whatever the accumulator's buffer held, it ends at the partial product added to the zero block —
    the zero block stored first is what the addition reads back. -/
theorem sread1_A (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x2048 .f32) (x1 : Vec F S2048x1 .f32) (x2 : Vec F S1x1 .f32) (v : View sig .tc .vmem S1024x1 .f32) (f : v.ty.Contents (Elt F)) :
    v.read (Elt F) (v.writes (Elt F) f (kernelRun1_A c i arg2 harg2 arg3 harg3 arg4 harg4 arg5 harg5 arg6 harg6 hc0 hc1 x0 x1 x2).2.1) = k1_pay2 x0 x1 k1_pay1 := by
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x2048) hz, View.ld_unit_zero (S := S2048x1) hz]

/-- AN INNER COLUMN BLOCK: the accumulator, entered at `xs0`, ends at the partial product added to `xs0`. -/
theorem sread1_B (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x2048 .f32) (x1 : Vec F S2048x1 .f32) (x2 : Vec F S1x1 .f32) (xs0 : Vec F S1024x1 .f32) (v : View sig .tc .vmem S1024x1 .f32) (f : v.ty.Contents (Elt F)) :
    v.read (Elt F) (v.writes (Elt F) f (kernelRun1_B c i arg2 harg2 arg3 harg3 arg4 harg4 arg5 harg5 arg6 harg6 hc0 hc1 x0 x1 x2 xs0).2.1) = k1_pay2 x0 x1 xs0 := by
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S1024x1) hz]
  simp only [View.readAt_eq_ld, harg2.read_unread, harg3.read_unread, harg6.read_unread, View.ld_unit_zero (S := S1024x2048) hz, View.ld_unit_zero (S := S2048x1) hz, View.ld_unit_zero (S := S1024x1) hz]

/-- COLUMN BLOCK 7: the accumulator, entered at `xs0`, ends at the partial product added to `xs0`, -/
theorem sread1_C (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) (v : View sig .tc .vmem S1024x1 .f32) (f : v.ty.Contents (Elt F)) :
    v.read (Elt F) (v.writes (Elt F) f (kernelRun1_C c i arg2 harg2 arg3 harg3 arg4 harg4 arg5 harg5 arg6 harg6 hc0 hc1 x0 x1 x2 xs0).2.1) = k1_pay2 x0 x1 xs0 := by
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S1024x1) hz]
  simp only [View.readAt_eq_ld, harg2.read_unread, harg3.read_unread, harg6.read_unread, View.ld_unit_zero (S := S1024x2048) hz, View.ld_unit_zero (S := S2048x1) hz, View.ld_unit_zero (S := S1024x1) hz]

/-- and the output block, whatever it held, ends at the bias added to that sum and the maximum with zero taken: the
    sum just stored is what this reads back. -/
theorem oread1_C (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) (v : View sig .tc .vmem S1024x1 .f32) (f : v.ty.Contents (Elt F)) :
    v.read (Elt F) (v.writes (Elt F) f (kernelRun1_C c i arg2 harg2 arg3 harg3 arg4 harg4 arg5 harg5 arg6 harg6 hc0 hc1 x0 x1 x2 xs0).1) = k1_pay3 (k1_pay2 x0 x1 xs0) x2 := by
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S1024x1) hz, View.readCov_unit_zero (S := S1024x1) _ hz]
  simp only [View.readAt_eq_ld, harg2.read_unread, harg3.read_unread, harg4.read_unread, harg6.read_unread, View.ld_unit_zero (S := S1024x2048) hz, View.ld_unit_zero (S := S2048x1) hz, View.ld_unit_zero (S := S1x1) hz, View.ld_unit_zero (S := S1024x1) hz]

/-! ## The invariant carried between grid points -/

/-- The region's invariant before position `n`: before the first point the launch's (every scoped buffer at anything);
    afterwards the accumulator at what the point before left in it, beside the other scoped buffers at anything and
    the generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(others1 c ∗ owns (c : Thread nD τ) scM1_0 fullShare (acc1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(others1 c ∗ owns (c : Thread nD τ) scM1_0 fullShare (acc1 V c (n - 1) (by omega))) ∗ (∃ r, prngReg c r)) := by
  cases n with
  | zero => exact absurd rfl hz
  | succ n => rfl

/-! ## The pipeline's proof data -/

/-- The proof data of the second layer's pipeline on core `c`: the arrays as the region finds them; after the body at
    point `t` each input's buffer at its block and the output's at `relu (acc + b2)` of the accumulator after `t`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the column block `t % 8` says which case the point
    is in; the invariant hands the body the accumulator at what the point before left (at anything at the first
    point), and takes it back at this point's contents; at column block 7 the output block is stored, elsewhere its
    buffer is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    by_cases hz : t.val = 0
    · rw [PhiS1_castSucc V c t, PhiS1_zero V c _ _ hz, PhiA1_eq]
      iintro ⟨⟨⟨Hoth, HS0⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth HS0]
        · isplitl [Hoth]; · iexact Hoth
          unfold owns; iexists _; isplitr
          swap; · iexact HS0
          ipureintro; exact sread1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) scM1_0.view es0
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hoth, HS0⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hoth HS0 Hg]
      · isplitl [Hoth HS0]
        · isplitl [Hoth]; · iexact Hoth
          unfold owns; iexists _; isplitr
          swap; · iexact HS0
          ipureintro; exact sread1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) scM1_0.view es0
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun e => h0 (by rw [e])
    rw [acc1_next V c t h0]
    rw [PhiS1_castSucc V c t, PhiS1_pos V c _ _ hz]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [acc1_next V c t h0]
      iintro ⟨⟨⟨Hoth, HS0⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth HS0]
        · isplitl [Hoth]; · iexact Hoth
          unfold owns; iexists _; isplitr
          swap; · iexact HS0
          ipureintro; exact sread1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt)) scM1_0.view es0
        iexact Hg
      isplitl [Ho]; · iexact Ho
      isplitl [H0]; · iexact H0
      isplitl [H1]; · iexact H1
      isplitl [H2]; · iexact H2
      unfold owns; iexists _; isplitr
      swap; · iexact H3
      ipureintro; exact oread1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt)) (ms1_3 t).view e3
    · have hc1 : ¬cond1_1 (grid1.coords t) := fun h => h1 ((hcond1_1 t).mp h)
      rw [Dat.leavesExact_idle (dat1 V c) 3 t (idleAt1_3 t hc1) (noFlush1_3 t hc1)]
      iintro ⟨⟨⟨Hoth, HS0⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth HS0]
        · isplitl [Hoth]; · iexact Hoth
          unfold owns; iexists _; isplitr
          swap; · iexact HS0
          ipureintro; exact sread1_B c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt)) scM1_0.view es0
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hoth, HS0⟩, Hg⟩
  isplitl [Hoth HS0]
  · isplitl [Hoth]; · iexact Hoth
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.L2

end
-- ==== Proof.WordTwoLayersRun.lean ====
/-
  (The word-level program: the same text as for the idealized one, the float type a parameter throughout.)
  The whole program, from the launch to the return: the host operations `z := bf16 (x · W1)`, `b1` as a row; the
  first layer's kernel (the accumulator carried over its grid, `relu (adj · z + b1) · W2` written back block by block);
  `b2` as a [1,1] array; the second layer's kernel likewise. The contents of every unscoped buffer at each of the
  four boundaries are named (`W0` … `W4`: the launch memory, then each host stretch applied, then each region's arrays at
  what its write-backs leave); every weakly fair execution terminates, the result buffer ends at `W4`'s, and each
  argument array ends as launched.
-/
import proofs.«157115_j38354057954042_2_alg».proof.Proof.WordFirstLayerData
import proofs.«157115_j38354057954042_2_alg».proof.Proof.WordSecondLayerData
import proofs.«157115_j38354057954042_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host operations before the first kernel. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its arrays at what the pipeline leaves, every other buffer as entered. -/
def W2 (c : Dev nD) : Valuation τ sig (Elt F) :=
  Pipeline.withArrays spec0 c (W1 m c) fun w => (L1.dat0 (V1 m) c).arrAt w cfg0.N
theorem W2_arr (c : Dev nD) (w : Fin cfg0.W) :
    W2 m c (Proc.devRef .tc (Pipeline.arrRef spec0 w)) = (L1.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (L1.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operation between the kernels. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel. -/
def W4 (c : Dev nD) : Valuation τ sig (Elt F) :=
  Pipeline.withArrays spec1 c (W3 m c) fun w => (L2.dat1 (V3 m) c).arrAt w cfg1.N
theorem W4_arr (c : Dev nD) (w : Fin cfg1.W) :
    W4 m c (Proc.devRef .tc (Pipeline.arrRef spec1 w)) = (L2.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (L2.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- `main_arg0` reaches the end as launched: no host operation writes it and no region changes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- `main_arg1` reaches the end as launched: no host operation writes it and no region changes it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((L2.dat1 (V3 m) c).arrAt_in 0 rfl _).trans (L2.A_eq1 (V3 m) c 0))
    _ = W2 m c (Proc.devRef .tc main_arg1) := StableHlo.after_of_writes_sub hostOps1 _ hostOps1_writes (by decide : main_arg1 ∉ hostOps1_W)
    _ = W1 m c (Proc.devRef .tc main_arg1) := (W2_arr m c 0).trans (((L1.dat0 (V1 m) c).arrAt_in 0 rfl _).trans (L1.A_eq0 (V1 m) c 0))
    _ = W0 m c (Proc.devRef .tc main_arg1) := StableHlo.after_of_writes_sub hostOps0 _ hostOps0_writes (by decide : main_arg1 ∉ hostOps0_W)
    _ = m ((c : Thread nD τ).loc main_arg1) := rfl

/-- `main_arg2` reaches the end as launched: no host operation writes it and no region changes it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

/-- `main_arg3` reaches the end as launched: no host operation writes it and no region changes it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

/-- `main_arg4` reaches the end as launched: no host operation writes it and no region changes it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := (W2_arr m c 3).trans (((L1.dat0 (V1 m) c).arrAt_in 3 rfl _).trans (L1.A_eq0 (V1 m) c 3))
    _ = W0 m c (Proc.devRef .tc main_arg4) := StableHlo.after_of_writes_sub hostOps0 _ hostOps0_writes (by decide : main_arg4 ∉ hostOps0_W)
    _ = m ((c : Thread nD τ).loc main_arg4) := rfl

/-- `main_arg5` reaches the end as launched: no host operation writes it and no region changes it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => L1.dat0 (V1 m) c
  | ⟨1, _⟩ => fun c => L2.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (L1.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (L1.hin0 (V1 m) c)
    unfold Pipeline.ΦA
    iintro ⟨Hp, -, Hr⟩
    isplitl [Hr]; · iexact Hr
    iexact Hp
  hout c := by
    rw [Pipeline.ownSems0_none]
    refine (L1.hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (L2.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (L2.hin1 (V3 m) c)
    unfold Pipeline.ΦA
    iintro ⟨Hp, -, Hr⟩
    isplitl [Hr]; · iexact Hr
    iexact Hp
  hout c := by
    rw [Pipeline.ownSems0_none]
    refine (L2.hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting; the result buffer ends
    at `W4`'s contents (the second kernel's write-backs) and each argument array ends as launched. -/
theorem run : θ_run defs (onTc (τ := τ) (main (F := F))) ⟨m, fun _ => 0, ρ⟩ (fun r => ∀ c : Dev nD,
      r.2.mem ((c.tc : Thread nD τ).loc main_v5) = W4 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v5 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c)⟩)

end Cert.Kernel.Whole

end
-- ==== Proof.FirstLayerCases.lean ====
/-
  The first layer's kernel, `acc += adj_block · z_block` over a grid of 8 row blocks × 16 column blocks, with the
  accumulator zeroed at column block 0 and, at column block 15, `relu (acc + b1) · W2` stored into the output block.
  What its three control cases share: the two branch conditions in closed form over the grid (a point `t` is row block
  `t / 16`, column block `t % 16`), where the output window is idle and where it is written back, names for the
  staging memrefs at a point, each window's block of its array, and the region's invariant with the accumulator's
  buffer set apart from the other scoped buffers.
-/
import proofs.«157115_j38354057954042_2_alg».proof.Proof.Gen.KernelIdeal.Launch
import proofs.«157115_j38354057954042_2_alg».proof.Proof.Gen.KernelIdeal.Skeleton
import proofs.«157115_j38354057954042_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is the entry contents and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is column block 0": the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is column block 15": the output block is computed and stored. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last column block nothing is stored into the output window and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column block the output window is stored into. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S2048x1 .f32 := (Memref.whole cc0_stg4_0 : Memref sig .tc .vmem S2048x1 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one grid point to the next. -/
abbrev scM0_0 : Memref sig .tc .vmem S2048x256 .f32 := Memref.whole cc0_scratch0
abbrev VS0_0 : View sig .tc .vmem S2048x256 .f32 := scM0_0.view

/-- The core's other scoped buffers (the second kernel's staging buffers and accumulator), each whole at some contents:
    the first layer's kernel never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant with the accumulator owned at some contents, set apart from the other scoped buffers. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.L1

end
-- ==== Proof.FirstLayerRunFirst.lean ====
/-
  The first layer's kernel at column block 0 of a row block: the accumulator is zeroed, then the first partial
  product `adj_block · z_block` is added and stored. The output block is not touched.
-/
import proofs.«157115_j38354057954042_2_alg».proof.Proof.FirstLayerCases

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column block 0 (and not 15): whatever the accumulator held, it is zeroed, the partial product is added, and the sum is stored; the output block is handed back untouched. The pieces the accumulator ends with are found by the run. -/
noncomputable def kernelRun0_A (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .bf16) (x2 : Vec F S1x256 .f32) (x3 : Vec F S256x1 .f32) :
    Σ' (L4 : List (View.Piece (Elt F) S2048x1 .f32)), { LS0 : List (View.Piece (Elt F) S2048x256 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer1_kernel i arg2 harg2 arg3 harg3 arg4 harg4 arg5 harg5 arg6 harg6 arg7 harg7) K } := by
  refine ⟨[], ?_, fun xi4 E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.L1

end
-- ==== Proof.FirstLayerRunInner.lean ====
/-
  The first layer's kernel at a column block strictly between 0 and 15: the partial product `adj_block · z_block`
  is added to the accumulator. The output block is not touched.
-/
import proofs.«157115_j38354057954042_2_alg».proof.Proof.FirstLayerCases

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a column block that is neither 0 nor 15: the accumulator, entered at `xs0`, is added to and stored; the output block is handed back untouched. The pieces the accumulator ends with are found by the run. -/
noncomputable def kernelRun0_B (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .bf16) (x2 : Vec F S1x256 .f32) (x3 : Vec F S256x1 .f32) (xs0 : Vec F S2048x256 .f32) :
    Σ' (L4 : List (View.Piece (Elt F) S2048x1 .f32)), { LS0 : List (View.Piece (Elt F) S2048x256 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer1_kernel i arg2 harg2 arg3 harg3 arg4 harg4 arg5 harg5 arg6 harg6 arg7 harg7) K } := by
  refine ⟨[], ?_, fun xi4 E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.L1

end
-- ==== Proof.FirstLayerRunLast.lean ====
/-
  The first layer's kernel at column block 15: the last partial product is added to the accumulator, and the output
  block `relu (acc + b1) · W2` is stored.
-/
import proofs.«157115_j38354057954042_2_alg».proof.Proof.FirstLayerCases

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column block 15 (and not 0): the accumulator, entered at `xs0`, is added to and stored; then `relu (acc + b1) · W2`
    is stored into the output block, whatever it held. The pieces each buffer ends with are found by the run. -/
noncomputable def kernelRun0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .bf16) (x2 : Vec F S1x256 .f32) (x3 : Vec F S256x1 .f32) (xs0 : Vec F S2048x256 .f32) :
    Σ' (L4 : List (View.Piece (Elt F) S2048x1 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer1_kernel i arg2 harg2 arg3 harg3 arg4 harg4 arg5 harg5 arg6 harg6 arg7 harg7) K } := by
  refine ⟨?_, ?_, fun E K => ?run⟩
  case run =>
    simp only [cc0__gcn_layer1_kernel_eq_skeleton]; unfold cc0__gcn_layer1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.L1

end
-- ==== Proof.FirstLayerAccumulator.lean ====
/-
  The first layer's accumulator after each grid point, as an explicit recursion over the kernel's named payloads:
  at column block 0 of a row block it is `0 + adj_block · z_block`; at every later column block it is what the point
  before left plus that point's `adj_block · z_block`. The output block stored at column block 15 is
  `relu (acc + b1) · W2` of the accumulator after that point's addition.
-/
import proofs.«157115_j38354057954042_2_alg».proof.Proof.FirstLayerCases

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after point `n`. -/
def acc0 (c : Dev nD) : (n : ℕ) → n < cfg0.N → Vec F S2048x256 .f32
  | 0, hn => k0_pay2 (iblk0 V c 0 ⟨0, hn⟩) (k0_pay1 (F := F)) (iblk0 V c 1 ⟨0, hn⟩)
  | n + 1, hn =>
    if (n + 1) % 16 = 0 then k0_pay2 (iblk0 V c 0 ⟨n + 1, hn⟩) (k0_pay1 (F := F)) (iblk0 V c 1 ⟨n + 1, hn⟩)
    else k0_pay2 (iblk0 V c 0 ⟨n + 1, hn⟩) (acc0 c n (Nat.lt_of_succ_lt hn)) (iblk0 V c 1 ⟨n + 1, hn⟩)

/-- At column block 0 the accumulator restarts from zero. -/
theorem acc0_first (c : Dev nD) (t : Fin cfg0.N) (h : t.val % 16 = 0) :
    acc0 V c t.val t.isLt = k0_pay2 (iblk0 V c 0 t) (k0_pay1 (F := F)) (iblk0 V c 1 t) := by
  obtain ⟨n, hn⟩ := t
  cases n with
  | zero => rfl
  | succ n => exact if_pos h

/-- At a later column block it adds to what the point before left. -/
theorem acc0_next (c : Dev nD) (t : Fin cfg0.N) (h : ¬t.val % 16 = 0) :
    acc0 V c t.val t.isLt = k0_pay2 (iblk0 V c 0 t) (acc0 V c (t.val - 1) (Nat.lt_of_le_of_lt (Nat.sub_le _ _) t.isLt)) (iblk0 V c 1 t) := by
  obtain ⟨n, hn⟩ := t
  cases n with
  | zero => exact absurd (Nat.zero_mod _) h
  | succ n => exact if_neg h

/-- The output block stored at a point of column block 15. -/
def out0 (c : Dev nD) (t : Fin cfg0.N) : Vec F S2048x1 .f32 :=
  k0_pay3 (acc0 V c t.val t.isLt) (iblk0 V c 2 t) (iblk0 V c 3 t)

end Cert.KernelIdeal.L1

end
-- ==== Proof.FirstLayerData.lean ====
/-
  The first layer's kernel over its whole grid: what the accumulator and the output block hold after every point
  (`acc0`, `out0`), as the region's invariant and the pipeline's proof data, and the proof that the body, run at any
  point on what the pipeline hands it, leaves exactly that — by cases on the column block (0, inner, 15), each case the
  body's run with the pieces it found read back as the named payloads.
-/
import proofs.«157115_j38354057954042_2_alg».proof.Proof.FirstLayerRunFirst
import proofs.«157115_j38354057954042_2_alg».proof.Proof.FirstLayerRunInner
import proofs.«157115_j38354057954042_2_alg».proof.Proof.FirstLayerRunLast
import proofs.«157115_j38354057954042_2_alg».proof.Proof.FirstLayerAccumulator
import Idealize.ShloMosaic.Lib.Pipeline.Value

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block rectangle. -/
theorem hz2 : (![0, 0] : Fin 2 → ℕ) = fun _ => 0 := by funext a; fin_cases a <;> rfl

/-! ## What each case leaves: the found pieces cover their buffers, and read back as the named payloads -/

theorem scover0_A (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : cond0_0 i) (hc1 : ¬cond0_1 i) (x0 : Vec F S2048x1024 .f32) (x1 : Vec F S1024x256 .bf16) (x2 : Vec F S1x256 .f32) (x3 : Vec F S256x1 .f32) (y : S2048x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x256.size (by sl_kernel_rfl) y

/-- At column block 0 the accumulator ends at `0 + adj_block · z_block` (the payloads' names for it). -/
theorem sacc0_A (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : cond0_0 i) (hc1 : ¬cond0_1 i) (x0 : Vec F S2048x1024 .f32) (x1 : Vec F S1024x256 .bf16) (x2 : Vec F S1x256 .f32) (x3 : Vec F S256x1 .f32) :
    VS0_0.read (Elt F) (VS0_0.writes (Elt F) VS0_0.junk (kernelRun0_A c i arg2 harg2 arg3 harg3 arg4 harg4 arg5 harg5 arg6 harg6 arg7 harg7 hc0 hc1 x0 x1 x2 x3).2.1) = k0_pay2 x0 (k0_pay1 (F := F)) x1 := by
  rw [View.read_writes_eq_canon _ _ _ (scover0_A c i arg2 harg2 arg3 harg3 arg4 harg4 arg5 harg5 arg6 harg6 arg7 harg7 hc0 hc1 x0 x1 x2 x3)]
  unfold kernelRun0_A; dsimp only; sl_unfold_words
  rw [View.canon_cons_unit_zero hz2]
  simp only [View.readAt_eq_ld, harg2.read_unread, harg3.read_unread, View.ld_unit_zero (S := S2048x1024) hz2, View.ld_unit_zero (S := S1024x256) hz2]
  rw [View.readCov_unit_zero (S := S2048x256) arg7.view hz2]

theorem scover0_B (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : ¬cond0_1 i) (x0 : Vec F S2048x1024 .f32) (x1 : Vec F S1024x256 .bf16) (x2 : Vec F S1x256 .f32) (x3 : Vec F S256x1 .f32) (xs0 : Vec F S2048x256 .f32) (y : S2048x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2048x256.size (by sl_kernel_rfl) y

/-- At an inner column block the accumulator ends at what it held plus `adj_block · z_block`. -/
theorem sacc0_B (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : ¬cond0_1 i) (x0 : Vec F S2048x1024 .f32) (x1 : Vec F S1024x256 .bf16) (x2 : Vec F S1x256 .f32) (x3 : Vec F S256x1 .f32) (xs0 : Vec F S2048x256 .f32) :
    VS0_0.read (Elt F) (VS0_0.writes (Elt F) VS0_0.junk (kernelRun0_B c i arg2 harg2 arg3 harg3 arg4 harg4 arg5 harg5 arg6 harg6 arg7 harg7 hc0 hc1 x0 x1 x2 x3 xs0).2.1) = k0_pay2 x0 xs0 x1 := by
  rw [View.read_writes_eq_canon _ _ _ (scover0_B c i arg2 harg2 arg3 harg3 arg4 harg4 arg5 harg5 arg6 harg6 arg7 harg7 hc0 hc1 x0 x1 x2 x3 xs0)]
  unfold kernelRun0_B; dsimp only; sl_unfold_words
  rw [View.canon_unit_zero hz2]
  simp only [View.readAt_eq_ld, harg2.read_unread, harg3.read_unread, harg7.read_unread, View.ld_unit_zero (S := S2048x1024) hz2, View.ld_unit_zero (S := S1024x256) hz2, View.ld_unit_zero (S := S2048x256) hz2]

theorem scover0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S1024x256 .bf16) (x2 : Vec F S1x256 .f32) (x3 : Vec F S256x1 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x256.size (by sl_kernel_rfl) y

/-- At column block 15 the accumulator ends at what it held plus `adj_block · z_block`, -/
theorem sacc0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S1024x256 .bf16) (x2 : Vec F S1x256 .f32) (x3 : Vec F S256x1 .f32) (xs0 : Vec F S2048x256 .f32) :
    VS0_0.read (Elt F) (VS0_0.writes (Elt F) VS0_0.junk (kernelRun0_C c i arg2 harg2 arg3 harg3 arg4 harg4 arg5 harg5 arg6 harg6 arg7 harg7 hc0 hc1 x0 x1 x2 x3 xs0).2.1) = k0_pay2 x0 xs0 x1 := by
  rw [View.read_writes_eq_canon _ _ _ (scover0_C c i arg2 harg2 arg3 harg3 arg4 harg4 arg5 harg5 arg6 harg6 arg7 harg7 hc0 hc1 x0 x1 x2 x3 xs0)]
  unfold kernelRun0_C; dsimp only; sl_unfold_words
  rw [View.canon_unit_zero hz2]
  simp only [View.readAt_eq_ld, harg2.read_unread, harg3.read_unread, harg7.read_unread, View.ld_unit_zero (S := S2048x1024) hz2, View.ld_unit_zero (S := S1024x256) hz2, View.ld_unit_zero (S := S2048x256) hz2]

theorem cover0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S1024x256 .bf16) (x2 : Vec F S1x256 .f32) (x3 : Vec F S256x1 .f32) (xs0 : Vec F S2048x256 .f32) (y : S2048x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x1.size (by sl_kernel_rfl) y

/-- and the output block at `relu (acc + b1) · W2` of that accumulator. -/
theorem sout0_C (c : Dev nD) (i : grid0.Coords) (arg2 : Memref sig .tc .vmem S2048x1024 .f32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S256x1 .f32) (harg5 : arg5.IsWhole) (arg6 : Memref sig .tc .vmem S2048x1 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S1024x256 .bf16) (x2 : Vec F S1x256 .f32) (x3 : Vec F S256x1 .f32) (xs0 : Vec F S2048x256 .f32) :
    VO0_4.read (Elt F) (VO0_4.writes (Elt F) VO0_4.junk (kernelRun0_C c i arg2 harg2 arg3 harg3 arg4 harg4 arg5 harg5 arg6 harg6 arg7 harg7 hc0 hc1 x0 x1 x2 x3 xs0).1) = k0_pay3 (k0_pay2 x0 xs0 x1) x2 x3 := by
  rw [View.read_writes_eq_canon _ _ _ (cover0_C c i arg2 harg2 arg3 harg3 arg4 harg4 arg5 harg5 arg6 harg6 arg7 harg7 hc0 hc1 x0 x1 x2 x3 xs0)]
  unfold kernelRun0_C; dsimp only; sl_unfold_words
  rw [View.canon_unit_zero hz2]
  simp only [View.readAt_eq_ld, harg2.read_unread, harg3.read_unread, harg4.read_unread, harg5.read_unread, harg7.read_unread, View.ld_unit_zero (S := S2048x1024) hz2, View.ld_unit_zero (S := S1024x256) hz2, View.ld_unit_zero (S := S2048x256) hz2, View.ld_unit_zero (S := S1x256) hz2, View.ld_unit_zero (S := S256x1) hz2]
  rw [View.readCov_unit_zero (S := S2048x256) arg7.view hz2]

/-! ## The region's invariant: the accumulator at what the point before left -/

/-- Before point `n`: at the region's entry every scoped buffer at anything; afterwards the accumulator at `acc0` of the
    point before, the core's other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ others0 c) ∗ (∃ r, prngReg c r)) := by
  cases n with
  | zero => exact absurd rfl hz
  | succ n => rfl

/-! ## The pipeline's proof data -/

/-- The arrays as the region finds them; after the body at point `t` each input's buffer at its block and the output's at
    `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which column block the point is
    in; that case's run applies; the invariant hands over the accumulator at what the point before left (at anything at
    the region's first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val % 16 = 15
  · -- column block 15
    have h0 : ¬t.val % 16 = 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    have hz : t.val ≠ 0 := by omega
    unfold out0
    rw [acc0_next V c t h0]
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hoth Hg]
    · isplitl [HS0 Hoth]
      · isplitl [HS0]
        · unfold owns; iexists _; isplitr
          swap; · iexact HS0
          ipureintro
          exact (View.read_writes_of_cover _ _ _ _ _ (scover0_C c _ _ _ _ _ _ _ _ _ _ _ _ _ _ _ _ _ _ _ _)).trans (sacc0_C c _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ _ _ _ (cover0_C c _ _ _ _ _ _ _ _ _ _ _ _ _ _ _ _ _ _ _ _)).trans (sout0_C c _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    by_cases h0 : t.val % 16 = 0
    · -- column block 0
      rw [acc0_first V c t h0]
      have hrun := (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)).2.2
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply (hrun _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro
              exact (View.read_writes_of_cover _ _ _ _ _ (scover0_A c _ _ _ _ _ _ _ _ _ _ _ _ _ _ _ _ _ _ _)).trans (sacc0_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply (hrun _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro
              exact (View.read_writes_of_cover _ _ _ _ _ (scover0_A c _ _ _ _ _ _ _ _ _ _ _ _ _ _ _ _ _ _ _)).trans (sacc0_A c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
    · -- an inner column block
      have hz : t.val ≠ 0 := fun e => h0 (by rw [e])
      rw [acc0_next V c t h0]
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro
            exact (View.read_writes_of_cover _ _ _ _ _ (scover0_B c _ _ _ _ _ _ _ _ _ _ _ _ _ _ _ _ _ _ _ _)).trans (sacc0_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Cert.KernelIdeal.L1

end
-- ==== Proof.SecondLayerCases.lean ====
/-
  The second layer's kernel, `acc += adj_block · z_block` over a grid of 16 row blocks × 8 column blocks, with the
  accumulator zeroed at column block 0 and, at column block 7, `relu (acc + b2)` stored into the output block.
  What its three control cases share: the two branch conditions in closed form over the grid (a point `t` is row block
  `t / 8`, column block `t % 8`), where the output window is idle and where it is written back, names for the
  staging memrefs at a point, each window's block of its array, the accumulator's contents after each point as a
  recursion over the grid points, and the region's invariant with the accumulator's buffer set apart from the other
  scoped buffers.
-/
import proofs.«157115_j38354057954042_2_alg».proof.Proof.Gen.KernelIdeal.Launch
import proofs.«157115_j38354057954042_2_alg».proof.Proof.Gen.KernelIdeal.Skeleton
import proofs.«157115_j38354057954042_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is the entry contents and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The accumulator after point `n`: at column block 0 the partial product added to the zero block, elsewhere added to
    what the point before left. -/
def acc1 (c : Dev nD) : (n : ℕ) → n < cfg1.N → Vec F S1024x1 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- At column block 0 the accumulator restarts from the zero block. -/
theorem acc1_first (c : Dev nD) (t : Fin cfg1.N) (h : t.val % 8 = 0) :
    acc1 V c t.val t.isLt = k1_pay2 (iblk1 V c 0 t) (iblk1 V c 1 t) k1_pay1 := by
  obtain ⟨n, hn⟩ := t
  cases n with
  | zero => rfl
  | succ n => exact (if_pos h).trans rfl

/-- At a later column block it continues from what the point before left. -/
theorem acc1_next (c : Dev nD) (t : Fin cfg1.N) (h : t.val % 8 ≠ 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The body's two branch conditions -/

/-- "This is column block 0": the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is column block 7": the output block is computed and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last column block nothing is stored into the output window and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column block the output window is stored into. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x1 .f32 := (Memref.whole cc1_stg3_0 : Memref sig .tc .vmem S1024x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one grid point to the next. -/
abbrev scM1_0 : Memref sig .tc .vmem S1024x1 .f32 := Memref.whole cc1_scratch0
abbrev VS1_0 : View sig .tc .vmem S1024x1 .f32 := scM1_0.view

/-- Every store and load of the body is at offset zero of its buffer. -/
theorem hz : (![0, 0] : Fin 2 → Nat) = fun _ => 0 := funext fun a => by fin_cases a <;> rfl

/-- The core's other scoped buffers (the first kernel's staging buffers and accumulator), each whole at some contents:
    the second layer's kernel never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region's invariant with the accumulator owned at some contents, set apart from the other scoped buffers. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA others1; rw [scopedRest1_eq]; simp only [scM1_0, owns_whole]
  refine BI.Entails.antisymm (show (_ : sProp 𝕄) ⊢ _ from ?_) (show (_ : sProp 𝕄) ⊢ _ from ?_)
  · iintro ⟨⟨A1, A2, A3, A4, A5, A6, A7, A8, A9, HS⟩, Hg⟩
    isplitr [Hg]
    · isplitr [HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        iexact A9
      · iexact HS
    · iexact Hg
  · iintro ⟨⟨⟨A1, A2, A3, A4, A5, A6, A7, A8, A9⟩, HS⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact HS
    · iexact Hg

end Cert.KernelIdeal.L2

end
-- ==== Proof.SecondLayerRunFirst.lean ====
/-
  The second layer's kernel at column block 0: the accumulator is zeroed, the zero block is read back, and the first
  partial product is added to it and stored. Nothing is stored into the output block.
-/
import proofs.«157115_j38354057954042_2_alg».proof.Proof.SecondLayerCases

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column block 0 (and not 7): whatever the accumulator held, it is zeroed, and the partial product of this point's
    blocks is added and stored; the output window's buffer, at `xi3`, is handed back untouched. The pieces the
    accumulator ends with are found by the run. -/
noncomputable def kernelRun1_A (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x2048 .f32) (x1 : Vec F S2048x1 .f32) (x2 : Vec F S1x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer2_kernel i arg2 harg2 arg3 harg3 arg4 harg4 arg5 harg5 arg6 harg6) K } := by
  refine ⟨[], ?_, fun xi3 E K => ?run⟩
  case run =>
    simp only [cc1__gcn_layer2_kernel_eq_skeleton]; unfold cc1__gcn_layer2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.L2

end
-- ==== Proof.SecondLayerRunInner.lean ====
/-
  The second layer's kernel at a column block that is neither 0 nor 7: the partial product of this point's blocks is
  added to the accumulator and stored. Nothing is stored into the output block.
-/
import proofs.«157115_j38354057954042_2_alg».proof.Proof.SecondLayerCases

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a column block that is neither 0 nor 7: the accumulator, entered at `xs0`, is added to and stored; the output
    window's buffer, at `xi3`, is handed back untouched. The pieces the accumulator ends with are found by the run. -/
noncomputable def kernelRun1_B (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x2048 .f32) (x1 : Vec F S2048x1 .f32) (x2 : Vec F S1x1 .f32) (xs0 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer2_kernel i arg2 harg2 arg3 harg3 arg4 harg4 arg5 harg5 arg6 harg6) K } := by
  refine ⟨[], ?_, fun xi3 E K => ?run⟩
  case run =>
    simp only [cc1__gcn_layer2_kernel_eq_skeleton]; unfold cc1__gcn_layer2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.L2

end
-- ==== Proof.SecondLayerRunLast.lean ====
/-
  The second layer's kernel at column block 7: the last partial product is added to the accumulator, and the output
  block `relu (acc + b2)` is stored.
-/
import proofs.«157115_j38354057954042_2_alg».proof.Proof.SecondLayerCases

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column block 7 (and not 0): the accumulator, entered at `xs0`, is added to and stored; then `relu (acc + b2)` is
    stored into the output block, whatever it held. The pieces each buffer ends with are found by the run. -/
noncomputable def kernelRun1_C (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer2_kernel i arg2 harg2 arg3 harg3 arg4 harg4 arg5 harg5 arg6 harg6) K } := by
  refine ⟨?_, ?_, fun E K => ?run⟩
  case run =>
    simp only [cc1__gcn_layer2_kernel_eq_skeleton]; unfold cc1__gcn_layer2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.L2

end
-- ==== Proof.SecondLayerData.lean ====
/-
  The second layer's kernel, the rest of its half of the frame: what each control case's stores leave in the
  accumulator and in the output block, named by the kernel's payloads; the invariant carried from one grid point to the
  next (the accumulator at its contents after the point before); the proof data of the pipeline; and the body's
  obligation at every grid point.
-/
import proofs.«157115_j38354057954042_2_alg».proof.Proof.SecondLayerRunFirst
import proofs.«157115_j38354057954042_2_alg».proof.Proof.SecondLayerRunInner
import proofs.«157115_j38354057954042_2_alg».proof.Proof.SecondLayerRunLast

set_option maxRecDepth 16384

noncomputable section

namespace Cert.KernelIdeal.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-! ## What each case's stores leave -/

/-- At column block 0 the accumulator's stores cover it. -/
theorem scover1_A_0 (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x2048 .f32) (x1 : Vec F S2048x1 .f32) (x2 : Vec F S1x1 .f32) (y : S1024x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x1.size (by sl_kernel_rfl) y

/-- At an inner column block the accumulator's store covers it. -/
theorem scover1_B_0 (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x2048 .f32) (x1 : Vec F S2048x1 .f32) (x2 : Vec F S1x1 .f32) (xs0 : Vec F S1024x1 .f32) (y : S1024x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x1.size (by sl_kernel_rfl) y

/-- At column block 7 the accumulator's store covers it, -/
theorem scover1_C_0 (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) (y : S1024x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x1.size (by sl_kernel_rfl) y

/-- and the output block's store covers it. -/
theorem cover1_C_3 (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) (y : S1024x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x1.size (by sl_kernel_rfl) y

/-- COLUMN BLOCK 0: whatever the accumulator's buffer held, it ends at the partial product added to the zero block —
    the zero block stored first is what the addition reads back. -/
theorem sread1_A (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x2048 .f32) (x1 : Vec F S2048x1 .f32) (x2 : Vec F S1x1 .f32) (v : View sig .tc .vmem S1024x1 .f32) (f : v.ty.Contents (Elt F)) :
    v.read (Elt F) (v.writes (Elt F) f (kernelRun1_A c i arg2 harg2 arg3 harg3 arg4 harg4 arg5 harg5 arg6 harg6 hc0 hc1 x0 x1 x2).2.1) = k1_pay2 x0 x1 k1_pay1 := by
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x2048) hz, View.ld_unit_zero (S := S2048x1) hz]

/-- AN INNER COLUMN BLOCK: the accumulator, entered at `xs0`, ends at the partial product added to `xs0`. -/
theorem sread1_B (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x2048 .f32) (x1 : Vec F S2048x1 .f32) (x2 : Vec F S1x1 .f32) (xs0 : Vec F S1024x1 .f32) (v : View sig .tc .vmem S1024x1 .f32) (f : v.ty.Contents (Elt F)) :
    v.read (Elt F) (v.writes (Elt F) f (kernelRun1_B c i arg2 harg2 arg3 harg3 arg4 harg4 arg5 harg5 arg6 harg6 hc0 hc1 x0 x1 x2 xs0).2.1) = k1_pay2 x0 x1 xs0 := by
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S1024x1) hz]
  simp only [View.readAt_eq_ld, harg2.read_unread, harg3.read_unread, harg6.read_unread, View.ld_unit_zero (S := S1024x2048) hz, View.ld_unit_zero (S := S2048x1) hz, View.ld_unit_zero (S := S1024x1) hz]

/-- COLUMN BLOCK 7: the accumulator, entered at `xs0`, ends at the partial product added to `xs0`, -/
theorem sread1_C (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) (v : View sig .tc .vmem S1024x1 .f32) (f : v.ty.Contents (Elt F)) :
    v.read (Elt F) (v.writes (Elt F) f (kernelRun1_C c i arg2 harg2 arg3 harg3 arg4 harg4 arg5 harg5 arg6 harg6 hc0 hc1 x0 x1 x2 xs0).2.1) = k1_pay2 x0 x1 xs0 := by
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S1024x1) hz]
  simp only [View.readAt_eq_ld, harg2.read_unread, harg3.read_unread, harg6.read_unread, View.ld_unit_zero (S := S1024x2048) hz, View.ld_unit_zero (S := S2048x1) hz, View.ld_unit_zero (S := S1024x1) hz]

/-- and the output block, whatever it held, ends at the bias added to that sum and the maximum with zero taken: the
    sum just stored is what this reads back. -/
theorem oread1_C (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x2048 .f32) (x1 : Vec F S2048x1 .f32) (x2 : Vec F S1x1 .f32) (xs0 : Vec F S1024x1 .f32) (v : View sig .tc .vmem S1024x1 .f32) (f : v.ty.Contents (Elt F)) :
    v.read (Elt F) (v.writes (Elt F) f (kernelRun1_C c i arg2 harg2 arg3 harg3 arg4 harg4 arg5 harg5 arg6 harg6 hc0 hc1 x0 x1 x2 xs0).1) = k1_pay3 (k1_pay2 x0 x1 xs0) x2 := by
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S1024x1) hz, View.readCov_unit_zero (S := S1024x1) _ hz]
  simp only [View.readAt_eq_ld, harg2.read_unread, harg3.read_unread, harg4.read_unread, harg6.read_unread, View.ld_unit_zero (S := S1024x2048) hz, View.ld_unit_zero (S := S2048x1) hz, View.ld_unit_zero (S := S1x1) hz, View.ld_unit_zero (S := S1024x1) hz]

/-! ## The invariant carried between grid points -/

/-- The region's invariant before position `n`: before the first point the launch's (every scoped buffer at anything);
    afterwards the accumulator at what the point before left in it, beside the other scoped buffers at anything and
    the generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(others1 c ∗ owns (c : Thread nD τ) scM1_0 fullShare (acc1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(others1 c ∗ owns (c : Thread nD τ) scM1_0 fullShare (acc1 V c (n - 1) (by omega))) ∗ (∃ r, prngReg c r)) := by
  cases n with
  | zero => exact absurd rfl hz
  | succ n => rfl

/-! ## The pipeline's proof data -/

/-- The proof data of the second layer's pipeline on core `c`: the arrays as the region finds them; after the body at
    point `t` each input's buffer at its block and the output's at `relu (acc + b2)` of the accumulator after `t`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the column block `t % 8` says which case the point
    is in; the invariant hands the body the accumulator at what the point before left (at anything at the first
    point), and takes it back at this point's contents; at column block 7 the output block is stored, elsewhere its
    buffer is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    by_cases hz : t.val = 0
    · rw [PhiS1_castSucc V c t, PhiS1_zero V c _ _ hz, PhiA1_eq]
      iintro ⟨⟨⟨Hoth, HS0⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth HS0]
        · isplitl [Hoth]; · iexact Hoth
          unfold owns; iexists _; isplitr
          swap; · iexact HS0
          ipureintro; exact sread1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) scM1_0.view es0
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hoth, HS0⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hoth HS0 Hg]
      · isplitl [Hoth HS0]
        · isplitl [Hoth]; · iexact Hoth
          unfold owns; iexists _; isplitr
          swap; · iexact HS0
          ipureintro; exact sread1_A c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) scM1_0.view es0
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun e => h0 (by rw [e])
    rw [acc1_next V c t h0]
    rw [PhiS1_castSucc V c t, PhiS1_pos V c _ _ hz]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [acc1_next V c t h0]
      iintro ⟨⟨⟨Hoth, HS0⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth HS0]
        · isplitl [Hoth]; · iexact Hoth
          unfold owns; iexists _; isplitr
          swap; · iexact HS0
          ipureintro; exact sread1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt)) scM1_0.view es0
        iexact Hg
      isplitl [Ho]; · iexact Ho
      isplitl [H0]; · iexact H0
      isplitl [H1]; · iexact H1
      isplitl [H2]; · iexact H2
      unfold owns; iexists _; isplitr
      swap; · iexact H3
      ipureintro; exact oread1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt)) (ms1_3 t).view e3
    · have hc1 : ¬cond1_1 (grid1.coords t) := fun h => h1 ((hcond1_1 t).mp h)
      rw [Dat.leavesExact_idle (dat1 V c) 3 t (idleAt1_3 t hc1) (noFlush1_3 t hc1)]
      iintro ⟨⟨⟨Hoth, HS0⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth HS0]
        · isplitl [Hoth]; · iexact Hoth
          unfold owns; iexists _; isplitr
          swap; · iexact HS0
          ipureintro; exact sread1_B c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (acc1 V c (t.val - 1) (Nat.lt_of_le_of_lt (Nat.sub_le _ _) t.isLt)) scM1_0.view es0
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hoth, HS0⟩, Hg⟩
  isplitl [Hoth HS0]
  · isplitl [Hoth]; · iexact Hoth
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.L2

end
-- ==== Proof.TwoLayersRun.lean ====
/-
  The whole program, from the launch to the return: the host operations `z := bf16 (x · W1)`, `b1` as a row; the
  first layer's kernel (the accumulator carried over its grid, `relu (adj · z + b1) · W2` written back block by block);
  `b2` as a [1,1] array; the second layer's kernel likewise. The contents of every unscoped buffer at each of the
  four boundaries are named (`W0` … `W4`: the launch memory, then each host stretch applied, then each region's arrays at
  what its write-backs leave); every weakly fair execution terminates, the result buffer ends at `W4`'s, and each
  argument array ends as launched.
-/
import proofs.«157115_j38354057954042_2_alg».proof.Proof.FirstLayerData
import proofs.«157115_j38354057954042_2_alg».proof.Proof.SecondLayerData
import proofs.«157115_j38354057954042_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host operations before the first kernel. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its arrays at what the pipeline leaves, every other buffer as entered. -/
def W2 (c : Dev nD) : Valuation τ sig (Elt F) :=
  Pipeline.withArrays spec0 c (W1 m c) fun w => (L1.dat0 (V1 m) c).arrAt w cfg0.N
theorem W2_arr (c : Dev nD) (w : Fin cfg0.W) :
    W2 m c (Proc.devRef .tc (Pipeline.arrRef spec0 w)) = (L1.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (L1.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operation between the kernels. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel. -/
def W4 (c : Dev nD) : Valuation τ sig (Elt F) :=
  Pipeline.withArrays spec1 c (W3 m c) fun w => (L2.dat1 (V3 m) c).arrAt w cfg1.N
theorem W4_arr (c : Dev nD) (w : Fin cfg1.W) :
    W4 m c (Proc.devRef .tc (Pipeline.arrRef spec1 w)) = (L2.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (L2.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- `main_arg0` reaches the end as launched: no host operation writes it and no region changes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- `main_arg1` reaches the end as launched: no host operation writes it and no region changes it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((L2.dat1 (V3 m) c).arrAt_in 0 rfl _).trans (L2.A_eq1 (V3 m) c 0))
    _ = W2 m c (Proc.devRef .tc main_arg1) := StableHlo.after_of_writes_sub hostOps1 _ hostOps1_writes (by decide : main_arg1 ∉ hostOps1_W)
    _ = W1 m c (Proc.devRef .tc main_arg1) := (W2_arr m c 0).trans (((L1.dat0 (V1 m) c).arrAt_in 0 rfl _).trans (L1.A_eq0 (V1 m) c 0))
    _ = W0 m c (Proc.devRef .tc main_arg1) := StableHlo.after_of_writes_sub hostOps0 _ hostOps0_writes (by decide : main_arg1 ∉ hostOps0_W)
    _ = m ((c : Thread nD τ).loc main_arg1) := rfl

/-- `main_arg2` reaches the end as launched: no host operation writes it and no region changes it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

/-- `main_arg3` reaches the end as launched: no host operation writes it and no region changes it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

/-- `main_arg4` reaches the end as launched: no host operation writes it and no region changes it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := (W2_arr m c 3).trans (((L1.dat0 (V1 m) c).arrAt_in 3 rfl _).trans (L1.A_eq0 (V1 m) c 3))
    _ = W0 m c (Proc.devRef .tc main_arg4) := StableHlo.after_of_writes_sub hostOps0 _ hostOps0_writes (by decide : main_arg4 ∉ hostOps0_W)
    _ = m ((c : Thread nD τ).loc main_arg4) := rfl

/-- `main_arg5` reaches the end as launched: no host operation writes it and no region changes it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => L1.dat0 (V1 m) c
  | ⟨1, _⟩ => fun c => L2.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (L1.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (L1.hin0 (V1 m) c)
    unfold Pipeline.ΦA
    iintro ⟨Hp, -, Hr⟩
    isplitl [Hr]; · iexact Hr
    iexact Hp
  hout c := by
    rw [Pipeline.ownSems0_none]
    refine (L1.hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (L2.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (L2.hin1 (V3 m) c)
    unfold Pipeline.ΦA
    iintro ⟨Hp, -, Hr⟩
    isplitl [Hr]; · iexact Hr
    iexact Hp
  hout c := by
    rw [Pipeline.ownSems0_none]
    refine (L2.hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting; the result buffer ends
    at `W4`'s contents (the second kernel's write-backs) and each argument array ends as launched. -/
theorem run : θ_run defs (onTc (τ := τ) (main (F := F))) ⟨m, fun _ => 0, ρ⟩ (fun r => ∀ c : Dev nD,
      r.2.mem ((c.tc : Thread nD τ).loc main_v5) = W4 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v5 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c)⟩)

end Cert.KernelIdeal.Whole

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«157115_j38354057954042_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.HostStretches.lean ====
/-
  What the host operations around the two kernels leave in the buffers the kernels read.

  Before the first kernel the host computes x · W1 (a contraction over the 128 features), changes its float format
  to bf16, and reshapes the bias vector b1 of length 256 to one row [1, 256]; before the second kernel it reshapes
  the one-entry bias b2 to [1, 1]. On the extended reals a change of format is the identity, the contraction is
  the matrix product, and a reshape keeps every entry at the same row-major position: entry (0, j) of the row is
  entry j of the vector.
-/
import proofs.«157115_j38354057954042_2_alg».proof.Proof.Gen.KernelIdeal.Regions
import proofs.«157115_j38354057954042_2_alg».proof.Proof.LibRowsTimes
import proofs.«157115_j38354057954042_2_alg».proof.Proof.LibRowsCols
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostV

open Cert.KernelIdeal Cert.KernelIdeal.Gen Cert.Dense Idealize.ShloMosaic Idealize.ShloMosaic.TcCoe Idealize.ShloMosaic.ValueIdx

/-! ## The host stretches' results as pure terms, for every float instance -/

section AnyInstance
variable {F : FTy → Type} [FloatOps F] (W : Valuation τ sig (Elt F))

/-- After the first stretch the second kernel operand holds x · W1 in bf16. -/
theorem after0_v1 :
    StableHlo.after hostOps0 W (Proc.devRef .tc main_v1)
      = (truncf .bf16 (Host.dotGeneral dot_S16384x128_S128x256_S16384x256_1_0_0_1_n_n none
          (W (Proc.devRef .tc main_arg0)) (W (Proc.devRef .tc main_arg2))) bitsLt_bf16_f32
          : (⟨S16384x256, .bf16⟩ : BufTy).Contents (Elt F)) := by
  after_results

/-- After the first stretch the bias row holds b1 reshaped to [1, 256]. -/
theorem after0_v2 :
    StableHlo.after hostOps0 W (Proc.devRef .tc main_v2)
      = (shapeCast S1x256 (W (Proc.devRef .tc main_arg3)) shapeCasts_S256_S1x256
          : (⟨S1x256, .f32⟩ : BufTy).Contents (Elt F)) := by
  after_results
  rfl

/-- After the second stretch the bias cell holds b2 reshaped to [1, 1]. -/
theorem after1_v4 :
    StableHlo.after hostOps1 W (Proc.devRef .tc main_v4)
      = (shapeCast S1x1 (W (Proc.devRef .tc main_arg5)) shapeCasts_S1_S1x1
          : (⟨S1x1, .f32⟩ : BufTy).Contents (Elt F)) := by
  after_results
  rfl

end AnyInstance

/-! ## The same results on the extended reals, read at an index -/

/-- The [16384, 128] × [128, 256] contraction pairs (r, k) on the left with (k, j) on the right. -/
theorem rowsCols_host : RowsCols (R := 16384) (K := 128) (N := 256) dot_S16384x128_S128x256_S16384x256_1_0_0_1_n_n where
  rank := rfl
  size := rfl
  l0 := fun j k => by
    unfold DotDims.lhsIdx
    rw [dif_neg (show ¬(0 : Fin S16384x128.rank) ∈ dot_S16384x128_S128x256_S16384x256_1_0_0_1_n_n.lhsBatch by decide),
      dif_pos (show (0 : Fin S16384x128.rank) ∈ dot_S16384x128_S128x256_S16384x256_1_0_0_1_n_n.lhsNonContracting by decide)]
    rfl
  l1 := fun j k => dot_S16384x128_S128x256_S16384x256_1_0_0_1_n_n.lhsIdx_val_of_single rfl j k
  r0 := fun j k => dot_S16384x128_S128x256_S16384x256_1_0_0_1_n_n.rhsIdx_val_of_single rfl j k
  r1 := fun j k => by
    unfold DotDims.rhsIdx
    rw [dif_neg (show ¬(1 : Fin S128x256.rank) ∈ dot_S16384x128_S128x256_S16384x256_1_0_0_1_n_n.rhsBatch by decide),
      dif_pos (show (1 : Fin S128x256.rank) ∈ dot_S16384x128_S128x256_S16384x256_1_0_0_1_n_n.rhsNonContracting by decide)]
    rfl

section AtIdeal
variable (W : Valuation τ sig (Elt Ideal))

/-- The first kernel's second operand is the matrix product x · W1: the change of format is the identity. -/
theorem z_eq :
    (StableHlo.after hostOps0 W (Proc.devRef .tc main_v1) : S16384x256.Idx → EReal)
      = rowsTimes (M := 16384) (K := 128) (N := 256) (W (Proc.devRef .tc main_arg0)) (W (Proc.devRef .tc main_arg2)) :=
  (after0_v1 W).trans (dotGeneral_eq rowsCols_host none (φ₁ := .f32) (φ₂ := .f32) _ _)

/-- The bias row's entry (0, j) is the bias vector's entry j. -/
theorem bias1_entry (j : Fin 256) :
    StableHlo.after hostOps0 W (Proc.devRef .tc main_v2) (ix2 (0 : Fin 1) j) = W (Proc.devRef .tc main_arg3) (ix1 j) :=
  (congrFun (after0_v2 W) _).trans
    (shapeCast_a_1a_apply (a := 256) (W (Proc.devRef .tc main_arg3)) shapeCasts_S256_S1x256 (0 : Fin 1) j)

/-- The bias cell's entry (0, 0) is the one-entry bias vector's entry. -/
theorem bias2_entry :
    StableHlo.after hostOps1 W (Proc.devRef .tc main_v4) (ix2 (0 : Fin 1) (0 : Fin 1))
      = W (Proc.devRef .tc main_arg5) (ix1 (0 : Fin 1)) :=
  (congrFun (after1_v4 W) _).trans
    (shapeCast_a_1a_apply (a := 1) (W (Proc.devRef .tc main_arg5)) shapeCasts_S1_S1x1 (0 : Fin 1) (0 : Fin 1))

end AtIdeal

end Cert.KernelIdeal.HostV

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LibChunkFold.lean ====
/-
  A running total over chunks. A sum over `N = (n + 1) * m` consecutive indices is cut into `n + 1` chunks of `m`.
  A total that starts as zero plus the sum of chunk 0, and to which the sum of chunk `c + 1` is added at step
  `c + 1`, is after the last step the sum over all `N` indices: by induction the total after step `c` is the sum of
  the chunk sums 0 … c, and the sum of all the chunk sums is the whole sum. Only the laws of a commutative monoid
  are used, so nothing has to be finite on the extended reals.
-/
import proofs.«157115_j38354057954042_2_alg».proof.Proof.LibChunkSum

namespace ChunkSum

/-- The running total after step `c` is the sum of the chunk sums `0 … c`. -/
theorem fold_partial {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    ∀ c (_ : c < n + 1), acc c = ∑ i ∈ Finset.range (c + 1), if hi : i < n + 1 then g ⟨i, hi⟩ else 0 := by
  intro c
  induction c with
  | zero =>
    intro _
    rw [h0, zero_add, Finset.sum_range_one, dif_pos (Nat.succ_pos n)]
  | succ c ih =>
    intro hc
    rw [hs c hc, ih (by omega), Finset.sum_range_succ _ (c + 1), dif_pos hc]

/-- Terms added one after the other onto a zero are their sum. -/
theorem fold_terms {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    acc n = ∑ c : Fin (n + 1), g c := by
  rw [fold_partial g acc h0 hs n (Nat.lt_succ_self n),
    ← Fin.sum_univ_eq_sum_range (fun i => if hi : i < n + 1 then g ⟨i, hi⟩ else 0) (n + 1)]
  exact Finset.sum_congr rfl fun c _ => dif_pos c.isLt

/-- A running total that starts from zero plus chunk 0 and adds chunk `c + 1` at step `c + 1` is, after the last
    chunk, the sum over all `N = (n + 1) * m` indices. -/
theorem fold_chunks {M : Type*} [AddCommMonoid M] {n m N : ℕ} (h : (n + 1) * m = N) (f : Fin N → M) (acc : ℕ → M)
    (h0 : acc 0 = 0 + ∑ k : Fin m, f (at_ h ⟨0, Nat.succ_pos n⟩ k))
    (hs : ∀ c (hc : c + 1 < n + 1), acc (c + 1) = acc c + ∑ k : Fin m, f (at_ h ⟨c + 1, hc⟩ k)) :
    acc n = ∑ j : Fin N, f j :=
  (fold_terms (fun c => ∑ k : Fin m, f (at_ h c k)) acc h0 hs).trans (sum_chunks h f)

end ChunkSum
-- ==== Proof.TileValues.lean ====
/-
  The two kernels' stored values, each read at one index, on the extended reals.

  Layer 1 keeps a [2048, 256] accumulator tile: it is set to zero (zero_tile); for every block of columns of the
  adjacency it gains the product of that [2048, 1024] block with the matching [1024, 256] block of x · W1
  (accumulate_tile); and at the last block the bias row is added to every row, the maximum with zero is taken and
  the result is multiplied by W2 (project_tile). Layer 2 keeps a [1024, 1] accumulator column: zero (zero_col),
  plus the product of a [1024, 2048] block with a [2048, 1] block (accumulate_col), and last the bias added and
  the maximum with zero taken (finish_col).

  A change of float format is the identity on the extended reals and a shape cast of a shape to itself is the
  identity, so each stored value is the plain arithmetic named above. Nothing here needs an entry to be finite.
-/
import proofs.«157115_j38354057954042_2_alg».proof.Proof.Gen.KernelIdeal.Skeleton
import proofs.«157115_j38354057954042_2_alg».proof.Proof.LibRowsTimes
import proofs.«157115_j38354057954042_2_alg».proof.Proof.LibRowsCols
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValues

open Cert.KernelIdeal Cert.KernelIdeal.Gen Cert.Dense Idealize.ShloMosaic Idealize.ShloMosaic.ValueIdx

/-! ## The three contractions are "rows times columns" -/

/-- The [2048, 1024] × [1024, 256] contraction pairs (r, k) on the left with (k, j) on the right. -/
theorem rowsCols_tile : RowsCols (R := 2048) (K := 1024) (N := 256) dot_S2048x1024_S1024x256_S2048x256_1_0_0_1_n_n where
  rank := rfl
  size := rfl
  l0 := fun j k => by
    unfold DotDims.lhsIdx
    rw [dif_neg (show ¬(0 : Fin S2048x1024.rank) ∈ dot_S2048x1024_S1024x256_S2048x256_1_0_0_1_n_n.lhsBatch by decide),
      dif_pos (show (0 : Fin S2048x1024.rank) ∈ dot_S2048x1024_S1024x256_S2048x256_1_0_0_1_n_n.lhsNonContracting by decide)]
    rfl
  l1 := fun j k => dot_S2048x1024_S1024x256_S2048x256_1_0_0_1_n_n.lhsIdx_val_of_single rfl j k
  r0 := fun j k => dot_S2048x1024_S1024x256_S2048x256_1_0_0_1_n_n.rhsIdx_val_of_single rfl j k
  r1 := fun j k => by
    unfold DotDims.rhsIdx
    rw [dif_neg (show ¬(1 : Fin S1024x256.rank) ∈ dot_S2048x1024_S1024x256_S2048x256_1_0_0_1_n_n.rhsBatch by decide),
      dif_pos (show (1 : Fin S1024x256.rank) ∈ dot_S2048x1024_S1024x256_S2048x256_1_0_0_1_n_n.rhsNonContracting by decide)]
    rfl

/-- The [2048, 256] × [256, 1] contraction pairs (r, k) on the left with (k, j) on the right. -/
theorem rowsCols_project : RowsCols (R := 2048) (K := 256) (N := 1) dot_S2048x256_S256x1_S2048x1_1_0_0_1_n_n where
  rank := rfl
  size := rfl
  l0 := fun j k => by
    unfold DotDims.lhsIdx
    rw [dif_neg (show ¬(0 : Fin S2048x256.rank) ∈ dot_S2048x256_S256x1_S2048x1_1_0_0_1_n_n.lhsBatch by decide),
      dif_pos (show (0 : Fin S2048x256.rank) ∈ dot_S2048x256_S256x1_S2048x1_1_0_0_1_n_n.lhsNonContracting by decide)]
    rfl
  l1 := fun j k => dot_S2048x256_S256x1_S2048x1_1_0_0_1_n_n.lhsIdx_val_of_single rfl j k
  r0 := fun j k => dot_S2048x256_S256x1_S2048x1_1_0_0_1_n_n.rhsIdx_val_of_single rfl j k
  r1 := fun j k => by
    unfold DotDims.rhsIdx
    rw [dif_neg (show ¬(1 : Fin S256x1.rank) ∈ dot_S2048x256_S256x1_S2048x1_1_0_0_1_n_n.rhsBatch by decide),
      dif_pos (show (1 : Fin S256x1.rank) ∈ dot_S2048x256_S256x1_S2048x1_1_0_0_1_n_n.rhsNonContracting by decide)]
    rfl

/-- The [1024, 2048] × [2048, 1] contraction pairs (r, k) on the left with (k, j) on the right. -/
theorem rowsCols_col : RowsCols (R := 1024) (K := 2048) (N := 1) dot_S1024x2048_S2048x1_S1024x1_1_0_0_1_n_n where
  rank := rfl
  size := rfl
  l0 := fun j k => by
    unfold DotDims.lhsIdx
    rw [dif_neg (show ¬(0 : Fin S1024x2048.rank) ∈ dot_S1024x2048_S2048x1_S1024x1_1_0_0_1_n_n.lhsBatch by decide),
      dif_pos (show (0 : Fin S1024x2048.rank) ∈ dot_S1024x2048_S2048x1_S1024x1_1_0_0_1_n_n.lhsNonContracting by decide)]
    rfl
  l1 := fun j k => dot_S1024x2048_S2048x1_S1024x1_1_0_0_1_n_n.lhsIdx_val_of_single rfl j k
  r0 := fun j k => dot_S1024x2048_S2048x1_S1024x1_1_0_0_1_n_n.rhsIdx_val_of_single rfl j k
  r1 := fun j k => by
    unfold DotDims.rhsIdx
    rw [dif_neg (show ¬(1 : Fin S2048x1.rank) ∈ dot_S1024x2048_S2048x1_S1024x1_1_0_0_1_n_n.rhsBatch by decide),
      dif_pos (show (1 : Fin S2048x1.rank) ∈ dot_S1024x2048_S2048x1_S1024x1_1_0_0_1_n_n.rhsNonContracting by decide)]
    rfl

/-! ## Layer 1: the [2048, 256] accumulator tile -/

/-- The first stored value is the zero word everywhere. -/
theorem zero_tile (j : S2048x256.Idx) : k0_pay1 (F := Ideal) j = Ideal.ofBits .f32 0x00000000#32 := by
  unfold k0_pay1
  rw [shapeCast_self]
  rfl

/-- … which is the extended real zero. -/
theorem zero_tile' (j : S2048x256.Idx) : k0_pay1 (F := Ideal) j = (0 : EReal) :=
  (zero_tile j).trans Ideal.ofBits_zero_f32

/-- One accumulation step: the accumulator plus the product of the two blocks. -/
theorem accumulate_tile (a : Vec Ideal S2048x1024 .f32) (s : Vec Ideal S2048x256 .f32) (z : Vec Ideal S1024x256 .bf16)
    (j : S2048x256.Idx) : k0_pay2 (F := Ideal) a s z j = s j + rowsTimes a z j := by
  unfold k0_pay2
  rw [shapeCast_self, shapeCast_self, addf_apply]
  exact congrArg (s j + ·) (matmul_zero_apply rowsCols_tile none _ z j)

/-- The last step of layer 1: the bias row added to every row of the accumulator, the maximum with zero, times W2. -/
theorem project_tile (s : Vec Ideal S2048x256 .f32) (b : Vec Ideal S1x256 .f32) (w : Vec Ideal S256x1 .f32)
    (j : S2048x1.Idx) :
    k0_pay3 (F := Ideal) s b w j
      = rowsTimes (relu (fun i : S2048x256.Idx => s i + b (ix2 (0 : Fin 1) (i 1 : Fin 256)))) w j := by
  unfold k0_pay3
  rw [shapeCast_self]
  refine (matmul_zero_apply rowsCols_project none _ _ j).trans ?_
  refine rowsTimes_of_rows _ _ _ _ j j (fun k => ?_) (fun k => rfl)
  have hb := broadcastTo_1b_ab_apply (a := 2048) (b := 256) b broadcasts_S1x256_S2048x256 (j 0 : Fin 2048) k
  exact congrArg (fun t => max (s (ix2 (j 0 : Fin 2048) k) + t) (Ideal.ofBits .f32 0x00000000#32)) hb

/-! ## Layer 2: the [1024, 1] accumulator column -/

/-- The first stored value is the zero word everywhere. -/
theorem zero_col (j : S1024x1.Idx) : k1_pay1 (F := Ideal) j = Ideal.ofBits .f32 0x00000000#32 := by
  unfold k1_pay1
  rw [shapeCast_self]
  rfl

/-- … which is the extended real zero. -/
theorem zero_col' (j : S1024x1.Idx) : k1_pay1 (F := Ideal) j = (0 : EReal) :=
  (zero_col j).trans Ideal.ofBits_zero_f32

/-- One accumulation step: the accumulator plus the product of the two blocks. -/
theorem accumulate_col (a : Vec Ideal S1024x2048 .f32) (z : Vec Ideal S2048x1 .f32) (s : Vec Ideal S1024x1 .f32)
    (j : S1024x1.Idx) : k1_pay2 (F := Ideal) a z s j = s j + rowsTimes a z j := by
  unfold k1_pay2
  rw [shapeCast_self, shapeCast_self, addf_apply]
  exact congrArg (s j + ·) (matmul_zero_apply rowsCols_col none _ _ j)

/-- The last step of layer 2: the bias added to every entry of the accumulator and the maximum with zero. -/
theorem finish_col (s : Vec Ideal S1024x1 .f32) (b : Vec Ideal S1x1 .f32) (j : S1024x1.Idx) :
    k1_pay3 (F := Ideal) s b j = max (s j + b (ix2 (0 : Fin 1) (0 : Fin 1))) (Ideal.ofBits .f32 0x00000000#32) := by
  unfold k1_pay3
  rw [shapeCast_self]
  have e : broadcastTo S1024x1 b broadcasts_S1x1_S1024x1 j = b (ix2 (0 : Fin 1) (0 : Fin 1)) :=
    broadcastTo_apply b broadcasts_S1x1_S1024x1 j (ix2 (0 : Fin 1) (0 : Fin 1)) fun ax => by
      match ax with
      | ⟨0, _⟩ => exact (if_pos rfl).symm
      | ⟨1, _⟩ => exact (if_pos rfl).symm
  exact congrArg (fun t => max (s j + t) (Ideal.ofBits .f32 0x00000000#32)) e

end Cert.KernelIdeal.TileValues

end
-- ==== Proof.FirstLayerValue.lean ====
/-
  The first layer's kernel, read on the arrays. A grid point `t` is row block `t / 16` and column block `t % 16`.
  Its block of `adj` is rows `2048 (t / 16) + p`, columns `1024 (t % 16) + s`; its block of `z` is rows
  `1024 (t % 16) + s`, all 256 columns; the bias row and the second weight are read whole. An element of a block sits
  in its array, on each axis, at the block index times the block size plus its own coordinate.

  On the extended reals the accumulator after column block `k` of a row block is the running total of the first
  `k + 1` chunks of 1024 terms of the contraction over all 16384 columns of `adj`: zero plus chunk 0 at column
  block 0, the previous total plus chunk `k` after. After column block 15 it is the whole contraction, that is the
  row block's rows of `adj · z`; the block stored there is those rows of `relu (adj · z + bias) · W2`. A finite sum
  may be regrouped and `0 + x = x` without any entry being finite.
-/
import proofs.«157115_j38354057954042_2_alg».proof.Proof.FirstLayerAccumulator
import proofs.«157115_j38354057954042_2_alg».proof.Proof.LibRowsTimes
import proofs.«157115_j38354057954042_2_alg».proof.Proof.LibChunkSum
import proofs.«157115_j38354057954042_2_alg».proof.Proof.LibChunkFold
import proofs.«157115_j38354057954042_2_alg».proof.Proof.TileValues

set_option maxRecDepth 16384

noncomputable section

namespace Cert.KernelIdeal.L1V

open Cert.KernelIdeal Cert.KernelIdeal.Gen Cert.KernelIdeal.L1
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The printed index maps over the grid -/

/-- The block indices of the four input windows and the output window at every grid point. -/
theorem idx_facts0 : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0 :=
  (by decide +kernel : ∀ t : Fin grid0.N, _)

/-- A grid point is below 128. -/
theorem point_lt (t : Fin cfg0.N) : t.val < 128 := t.isLt

/-- Row `p` of row block `t / 16` is a row of the array. -/
theorem row_lt (t : Fin cfg0.N) (p : Fin 2048) : 2048 * (t.val / 16) + p.val < 16384 := by
  have ht := point_lt t
  have hp := p.isLt
  omega

/-- Entry `s` of column block `t % 16` is a column of `adj`, and a row of `z`. -/
theorem col_lt (t : Fin cfg0.N) (s : Fin 1024) : 1024 * (t.val % 16) + s.val < 16384 := by
  have hs := s.isLt
  omega

/-! ## Each window's block, read off its array -/

/-- The block of `adj` at point `t`. -/
theorem iblk0_0_apply (c : Dev nD) (t : Fin cfg0.N) (p : Fin 2048) (s : Fin 1024) :
    iblk0 V c 0 t (ix2 p s)
      = V c main_arg1 (ix2 (⟨2048 * (t.val / 16) + p.val, row_lt t p⟩ : Fin 16384) (⟨1024 * (t.val % 16) + s.val, col_lt t s⟩ : Fin 16384)) := by
  obtain ⟨e0, e1, -⟩ := idx_facts0 t
  unfold iblk0
  show V c main_arg1 (((cfg0.win 0).blk t).view.emb (ix2 p s)) = V c main_arg1 _
  refine congrArg (V c main_arg1) (funext fun a => Fin.ext ?_)
  match a with
  | ⟨0, _⟩ => show win0_0.index t (0 : Fin 2) * 2048 + 1 * p.val = 2048 * (t.val / 16) + p.val; omega
  | ⟨1, _⟩ => show win0_0.index t (1 : Fin 2) * 1024 + 1 * s.val = 1024 * (t.val % 16) + s.val; omega

/-- The block of `z` at point `t`. -/
theorem iblk0_1_apply (c : Dev nD) (t : Fin cfg0.N) (s : Fin 1024) (q : Fin 256) :
    iblk0 V c 1 t (ix2 s q)
      = V c main_v1 (ix2 (⟨1024 * (t.val % 16) + s.val, col_lt t s⟩ : Fin 16384) q) := by
  obtain ⟨-, -, e0, e1, -⟩ := idx_facts0 t
  unfold iblk0
  show V c main_v1 (((cfg0.win 1).blk t).view.emb (ix2 s q)) = V c main_v1 _
  refine congrArg (V c main_v1) (funext fun a => Fin.ext ?_)
  match a with
  | ⟨0, _⟩ => show win0_1.index t (0 : Fin 2) * 1024 + 1 * s.val = 1024 * (t.val % 16) + s.val; omega
  | ⟨1, _⟩ => show win0_1.index t (1 : Fin 2) * 256 + 1 * q.val = q.val; omega

/-- The bias row is read whole. -/
theorem iblk0_2_apply (c : Dev nD) (t : Fin cfg0.N) (y : S1x256.Idx) : iblk0 V c 2 t y = V c main_v2 y := by
  obtain ⟨-, -, -, -, e0, e1, -⟩ := idx_facts0 t
  unfold iblk0
  show V c main_v2 (((cfg0.win 2).blk t).view.emb y) = V c main_v2 y
  refine congrArg (V c main_v2) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The second weight is read whole. -/
theorem iblk0_3_apply (c : Dev nD) (t : Fin cfg0.N) (y : S256x1.Idx) : iblk0 V c 3 t y = V c main_arg4 y := by
  obtain ⟨-, -, -, -, -, -, e0, e1, -⟩ := idx_facts0 t
  unfold iblk0
  show V c main_arg4 (((cfg0.win 3).blk t).view.emb y) = V c main_arg4 y
  refine congrArg (V c main_arg4) (funext fun a => Fin.ext ?_)
  match a with
  | ⟨0, _⟩ => show win0_3.index t (0 : Fin 2) * 256 + 1 * (y 0).val = (y 0).val; omega
  | ⟨1, _⟩ => show win0_3.index t (1 : Fin 2) * 1 + 1 * (y 1).val = (y 1).val; omega

/-! ## The accumulator and the stored block on the extended reals -/

section IdealValues

open Cert.Dense ChunkSum

variable (W : (c : Dev nD) → (b : Ref sig .tc) → Buf (Elt Ideal) ((c : Thread nD τ).loc b))

/-- The adjacency as the region finds it. -/
abbrev adjA (c : Dev nD) : (⟨2, ![16384, 16384]⟩ : Shape).Idx → EReal := W c main_arg1
/-- The first product `x · W1` as the region finds it (its narrower float format is not seen on the extended reals). -/
abbrev zA (c : Dev nD) : (⟨2, ![16384, 256]⟩ : Shape).Idx → EReal := W c main_v1
/-- The bias row. -/
abbrev biasA (c : Dev nD) : (⟨2, ![1, 256]⟩ : Shape).Idx → EReal := W c main_v2
/-- The second weight. -/
abbrev w2A (c : Dev nD) : (⟨2, ![256, 1]⟩ : Shape).Idx → EReal := W c main_arg4

/-- Sixteen chunks of 1024 are the 16384 columns. -/
theorem h16 : (15 + 1) * 1024 = 16384 := by norm_num

/-- The accumulator at a point does not depend on how the point's number is written. -/
theorem acc0_congr (c : Dev nD) {n n' : ℕ} (e : n = n') (hn : n < cfg0.N) (hn' : n' < cfg0.N) :
    acc0 W c n hn = acc0 W c n' hn' := by subst e; rfl

/-- A product read at (p, q) is the sum over `k` of the left operand at (p, k) times the right at (k, q). -/
theorem rowsTimes_ix2 {M K N : Nat} (a : (⟨2, ![M, K]⟩ : Shape).Idx → EReal) (w : (⟨2, ![K, N]⟩ : Shape).Idx → EReal)
    (p : Fin M) (q : Fin N) : rowsTimes a w (ix2 p q) = ∑ k : Fin K, a (ix2 p k) * w (ix2 k q) := rfl

/-- The product of point `t`'s two blocks at (p, q) is chunk `t % 16` of the contraction of row `R` of `adj` with
    column `q` of `z`, where `R` is row `p` of row block `t / 16`. -/
theorem tile_term (c : Dev nD) (t : Fin cfg0.N) (k : Fin (15 + 1)) (hk : t.val % 16 = k.val) (p : Fin 2048) (q : Fin 256)
    (R : Fin 16384) (hR : R.val = 2048 * (t.val / 16) + p.val) :
    rowsTimes (iblk0 W c 0 t : Vec Ideal S2048x1024 .f32) (iblk0 W c 1 t : Vec Ideal S1024x256 .bf16) (ix2 p q)
      = ∑ s : Fin 1024, adjA W c (ix2 R (at_ h16 k s)) * zA W c (ix2 (at_ h16 k s) q) := by
  refine (rowsTimes_ix2 _ _ p q).trans (Finset.sum_congr rfl fun s _ => ?_)
  have e1 : (⟨2048 * (t.val / 16) + p.val, row_lt t p⟩ : Fin 16384) = R := Fin.ext hR.symm
  have e2 : (⟨1024 * (t.val % 16) + s.val, col_lt t s⟩ : Fin 16384) = at_ h16 k s :=
    Fin.ext (by show 1024 * (t.val % 16) + s.val = k.val * 1024 + s.val; omega)
  have ha : (iblk0 W c 0 t : S2048x1024.Idx → EReal) (ix2 p s) = adjA W c (ix2 R (at_ h16 k s)) := by
    rw [iblk0_0_apply, e1, e2]
  have hz : (iblk0 W c 1 t : S1024x256.Idx → EReal) (ix2 s q) = zA W c (ix2 (at_ h16 k s) q) := by
    rw [iblk0_1_apply, e2]
  exact congrArg₂ (fun x y : EReal => x * y) ha hz

/-- At column block 0 the accumulator is zero plus chunk 0. -/
theorem acc0_first_apply (c : Dev nD) (t : Fin cfg0.N) (h0 : t.val % 16 = 0) (p : Fin 2048) (q : Fin 256)
    (R : Fin 16384) (hR : R.val = 2048 * (t.val / 16) + p.val) :
    acc0 W c t.val t.isLt (ix2 p q)
      = 0 + ∑ s : Fin 1024, adjA W c (ix2 R (at_ h16 ⟨0, Nat.succ_pos 15⟩ s)) * zA W c (ix2 (at_ h16 ⟨0, Nat.succ_pos 15⟩ s) q) := by
  refine (congrFun (acc0_first W c t h0) (ix2 p q)).trans ?_
  refine (TileValues.accumulate_tile _ _ _ _).trans ?_
  rw [TileValues.zero_tile', tile_term W c t ⟨0, Nat.succ_pos 15⟩ h0 p q R hR]

/-- At column block `k + 1` it is the total the point before left plus chunk `k + 1`. -/
theorem acc0_next_apply (c : Dev nD) (t : Fin cfg0.N) (k : ℕ) (hk : k + 1 < 15 + 1) (hk' : t.val % 16 = k + 1)
    (p : Fin 2048) (q : Fin 256) (R : Fin 16384) (hR : R.val = 2048 * (t.val / 16) + p.val) :
    acc0 W c t.val t.isLt (ix2 p q)
      = acc0 W c (t.val - 1) (Nat.lt_of_le_of_lt (Nat.sub_le _ _) t.isLt) (ix2 p q)
        + ∑ s : Fin 1024, adjA W c (ix2 R (at_ h16 ⟨k + 1, hk⟩ s)) * zA W c (ix2 (at_ h16 ⟨k + 1, hk⟩ s) q) := by
  refine (congrFun (acc0_next W c t (by omega)) (ix2 p q)).trans ?_
  refine (TileValues.accumulate_tile _ _ _ _).trans ?_
  rw [tile_term W c t ⟨k + 1, hk⟩ hk' p q R hR]

/-- After column block 15 the accumulator holds the row block's rows of `adj · z`. -/
theorem acc0_last (c : Dev nD) (t : Fin cfg0.N) (ht : t.val % 16 = 15) (p : Fin 2048) (q : Fin 256) :
    acc0 W c t.val t.isLt (ix2 p q)
      = rowsTimes (adjA W c) (zA W c) (ix2 (⟨2048 * (t.val / 16) + p.val, row_lt t p⟩ : Fin 16384) q) := by
  have hN := point_lt t
  -- the points of this row block, column block `k`
  have hpt : ∀ k, k < 16 → 16 * (t.val / 16) + k < cfg0.N := fun k hk => by show _ < 128; omega
  let R : Fin 16384 := ⟨2048 * (t.val / 16) + p.val, row_lt t p⟩
  let run : ℕ → EReal := fun k => if hk : k < 16 then acc0 W c (16 * (t.val / 16) + k) (hpt k hk) (ix2 p q) else 0
  have hfold := fold_chunks h16 (fun j : Fin 16384 => adjA W c (ix2 R j) * zA W c (ix2 j q)) run
    (by
      show (if hk : 0 < 16 then acc0 W c (16 * (t.val / 16) + 0) (hpt 0 hk) (ix2 p q) else 0) = _
      rw [dif_pos (by omega)]
      exact acc0_first_apply W c ⟨16 * (t.val / 16) + 0, hpt 0 (by omega)⟩ (by show (16 * (t.val / 16) + 0) % 16 = 0; omega) p q R
        (by show 2048 * (t.val / 16) + p.val = 2048 * ((16 * (t.val / 16) + 0) / 16) + p.val; omega))
    (fun k hk => by
      show (if h : k + 1 < 16 then acc0 W c (16 * (t.val / 16) + (k + 1)) (hpt (k + 1) h) (ix2 p q) else 0)
        = (if h : k < 16 then acc0 W c (16 * (t.val / 16) + k) (hpt k h) (ix2 p q) else 0) + _
      rw [dif_pos (by omega), dif_pos (by omega)]
      refine (acc0_next_apply W c ⟨16 * (t.val / 16) + (k + 1), hpt (k + 1) (by omega)⟩ k hk
        (by show (16 * (t.val / 16) + (k + 1)) % 16 = k + 1; omega) p q R
        (by show 2048 * (t.val / 16) + p.val = 2048 * ((16 * (t.val / 16) + (k + 1)) / 16) + p.val; omega)).trans ?_
      exact congrArg (fun a : Vec Ideal S2048x256 .f32 => a (ix2 p q) + _)
        (acc0_congr W c (by show 16 * (t.val / 16) + (k + 1) - 1 = 16 * (t.val / 16) + k; omega) _ _))
  have hrun : run 15 = acc0 W c t.val t.isLt (ix2 p q) := by
    show (if hk : 15 < 16 then acc0 W c (16 * (t.val / 16) + 15) (hpt 15 hk) (ix2 p q) else 0) = _
    rw [dif_pos (by omega)]
    exact congrFun (acc0_congr W c (by omega) _ _) (ix2 p q)
  exact hrun.symm.trans hfold

/-- The block stored at column block 15 holds the row block's rows of `relu (adj · z + bias) · W2`. -/
theorem out0_apply (c : Dev nD) (t : Fin cfg0.N) (ht : t.val % 16 = 15) (p : Fin 2048) :
    out0 W c t (ix2 p (0 : Fin 1))
      = rowsTimes (relu (fun i : (⟨2, ![16384, 256]⟩ : Shape).Idx =>
            rowsTimes (adjA W c) (zA W c) i + biasA W c (ix2 (0 : Fin 1) (i 1 : Fin 256)))) (w2A W c)
          (ix2 (⟨2048 * (t.val / 16) + p.val, row_lt t p⟩ : Fin 16384) (0 : Fin 1)) := by
  unfold out0
  refine (TileValues.project_tile _ _ _ _).trans ?_
  refine rowsTimes_of_rows _ _ _ _ _ _ (fun k => ?_) (fun k => ?_)
  · show max (acc0 W c t.val t.isLt (ix2 p k) + iblk0 W c 2 t (ix2 (0 : Fin 1) k)) _
      = max (rowsTimes (adjA W c) (zA W c) (ix2 (⟨2048 * (t.val / 16) + p.val, row_lt t p⟩ : Fin 16384) k)
          + biasA W c (ix2 (0 : Fin 1) k)) _
    rw [acc0_last W c t ht p k, iblk0_2_apply]
  · exact iblk0_3_apply W c t (ix2 k (0 : Fin 1))

end IdealValues

end Cert.KernelIdeal.L1V

end
-- ==== Proof.FirstLayerArray.lean ====
/-
  From blocks to the array, for the first layer's kernel, on the extended reals.

  The kernel's grid point `t` is row block `t / 16`, column block `t % 16`. The output window — block
  `(t / 16, 0)` of [2048, 1] entries of the [16384, 1] output array — is written back exactly at the points of
  column block 15, and what is written there is rows `2048 (t / 16) + p` of

      relu (adj · z + bias) · W2.

  The eight row blocks tile the 16384 rows: row `r` is in the block written at point `16 (r / 2048) + 15`. So after
  the last point the whole output array holds `relu (adj · z + bias) · W2`.
-/
import proofs.«157115_j38354057954042_2_alg».proof.Proof.FirstLayerData
import proofs.«157115_j38354057954042_2_alg».proof.Proof.FirstLayerValue
import proofs.«157115_j38354057954042_2_alg».proof.Proof.LibRowsTimes
import Idealize.ShloMosaic.Lib.Pipeline.Value
import Idealize.ShloMosaic.Lib.ValueIdx

set_option maxRecDepth 16384

noncomputable section

namespace Cert.KernelIdeal.L1A

open Cert.KernelIdeal Cert.KernelIdeal.Gen Cert.KernelIdeal.L1 Cert.KernelIdeal.L1V Cert.Dense
open Idealize.ShloMosaic Idealize.ShloMosaic.TcCoe Idealize.ShloMosaic.ValueIdx
open Idealize.SL.Sem
open Idealize.ShloMosaic.Pipeline (Dat Cfg Window)

variable (W : (c : Dev nD) → (b : Ref sig .tc) → Buf (Elt Ideal) ((c : Thread nD τ).loc b))

/-- What the first kernel's output array ends holding: `relu (adj · z + bias) · W2`, of the four arrays as the region
    finds them, the bias row added to every row. -/
abbrev projected (c : Dev nD) : (⟨2, ![16384, 1]⟩ : Shape).Idx → EReal :=
  rowsTimes (relu (fun i : (⟨2, ![16384, 256]⟩ : Shape).Idx =>
      rowsTimes (adjA W c) (zA W c) i + biasA W c (ix2 (0 : Fin 1) (i 1 : Fin 256)))) (w2A W c)

/-- The block stored at a point of column block 15, at any of its entries `y`, is the array's entry `i` whose row is
    row `y 0` of row block `t / 16` (a [·, 1] index has second coordinate 0). -/
theorem out0_at (c : Dev nD) (t : Fin cfg0.N) (ht : t.val % 16 = 15) (y : S2048x1.Idx) (i : S16384x1.Idx)
    (h0 : (i 0).val = 2048 * (t.val / 16) + (y 0).val) : out0 W c t y = projected W c i := by
  have ey : y = ix2 (y 0 : Fin 2048) (0 : Fin 1) := by
    funext a
    match a with
    | ⟨0, _⟩ => rfl
    | ⟨1, _⟩ => exact Subsingleton.elim (α := Fin 1) _ _
  have ei : i = ix2 (⟨2048 * (t.val / 16) + (y 0).val, row_lt t (y 0)⟩ : Fin 16384) (0 : Fin 1) := by
    funext a
    match a with
    | ⟨0, _⟩ => exact Fin.ext h0
    | ⟨1, _⟩ => exact Subsingleton.elim (α := Fin 1) _ _
  calc out0 W c t y = out0 W c t (ix2 (y 0 : Fin 2048) (0 : Fin 1)) := congrArg (out0 W c t) ey
    _ = projected W c (ix2 (⟨2048 * (t.val / 16) + (y 0).val, row_lt t (y 0)⟩ : Fin 16384) (0 : Fin 1)) :=
        out0_apply W c t ht (y 0)
    _ = projected W c i := congrArg (projected W c) ei.symm

/-- What a point of column block 15 writes back is its block of `projected`. -/
theorem flushed_projection (c : Dev nD) (t : Fin cfg0.N) (hf : (cfg0.win 4).flush t = true) :
    (dat0 W c).flushed 4 t = ((cfg0.win 4).blk t).view.read (Elt Ideal) (projected W c) := by
  have h15 : t.val % 16 = 15 := (flush0_4 t).mp hf
  obtain ⟨-, -, -, -, -, -, -, -, e0, e1⟩ := idx_facts0 t
  show (cfg0.win 4).cut (grid0.coords t) ((dat0 W c).after 4 t) = _
  rw [after0_4]
  funext j
  show out0 W c t j = projected W c (((cfg0.win 4).blk t).view.emb j)
  refine out0_at W c t h15 j _ ?_
  show win0_4.index t (0 : Fin 2) * 2048 + 1 * (j 0).val = 2048 * (t.val / 16) + (j 0).val
  omega

/-- An entry of the output array is in point `t`'s block iff each coordinate is in the block's range on its axis. -/
theorem mem_out_block (t : Fin cfg0.N) (i : S16384x1.Idx) :
    i ∈ ((cfg0.win 4).blk t).view.set
      ↔ ∀ a : Fin 2, win0_4.index t a * S2048x1.size a ≤ (i a).val
          ∧ (i a).val < win0_4.index t a * S2048x1.size a + S2048x1.size a := by
  show i ∈ ((View.whole main_v3).slice (win0_4.rect t)).set ↔ _
  rw [View.set_slice_whole, Rect.mem_set_unit]
  exact Iff.rfl

/-- Every entry of the output array is in the block some point of column block 15 writes back: row `r` in that of
    point `16 (r / 2048) + 15`. -/
theorem covered (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have hN : cfg0.N = 128 := N_0
  let t : Fin cfg0.N := ⟨16 * ((i 0).val / 2048) + 15, by rw [hN]; omega⟩
  have htv : t.val = 16 * ((i 0).val / 2048) + 15 := rfl
  obtain ⟨-, -, -, -, -, -, -, -, e0, e1⟩ := idx_facts0 t
  refine ⟨t, (flush0_4 t).mpr (by omega), ?_⟩
  rw [mem_out_block]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 1 ≤ (i 1).val ∧ (i 1).val < win0_4.index t (1 : Fin 2) * 1 + 1
    omega

/-- After the region the output array holds `relu (adj · z + bias) · W2`. -/
theorem final_projection (c : Dev nD) :
    (dat0 W c).arrAt 4 cfg0.N
      = rowsTimes (relu (fun i : (⟨2, ![16384, 256]⟩ : Shape).Idx =>
          rowsTimes (adjA W c) (zA W c) i + biasA W c (ix2 (0 : Fin 1) (i 1 : Fin 256)))) (w2A W c) :=
  (dat0 W c).arrAt_eq_of_cover 4 (projected W c) (flushed_projection W c) covered

end Cert.KernelIdeal.L1A

end
-- ==== Proof.SecondLayerValue.lean ====
/-
  The second layer's kernel, read on the arrays. A grid point `t` is row block `t / 8` and column block `t % 8`.
  Its block of `adj` is rows `1024 (t / 8) + p`, columns `2048 (t % 8) + s`; its block of `z` is rows
  `2048 (t % 8) + s` of the one column; the bias is read whole. An element of a block sits in its array, on each axis,
  at the block index times the block size plus its own coordinate.

  On the extended reals the accumulator after column block `k` of a row block is the running total of the first
  `k + 1` chunks of 2048 terms of the contraction over all 16384 columns of `adj`: zero plus chunk 0 at column
  block 0, the previous total plus chunk `k` after. After column block 7 it is the whole contraction, that is the
  row block's rows of `adj · z`; the block stored there is those rows of `relu (adj · z + bias)`, and the stored
  blocks of the 16 row blocks tile the output array. A finite sum may be regrouped and `0 + x = x` without any
  entry being finite.
-/
import proofs.«157115_j38354057954042_2_alg».proof.Proof.SecondLayerData
import proofs.«157115_j38354057954042_2_alg».proof.Proof.LibRowsTimes
import proofs.«157115_j38354057954042_2_alg».proof.Proof.LibChunkSum
import proofs.«157115_j38354057954042_2_alg».proof.Proof.LibChunkFold
import proofs.«157115_j38354057954042_2_alg».proof.Proof.TileValues
import Idealize.ShloMosaic.Lib.Pipeline.Value
import Idealize.ShloMosaic.Lib.ValueIdx

set_option maxRecDepth 16384

noncomputable section

namespace Cert.KernelIdeal.L2V

open Cert.KernelIdeal Cert.KernelIdeal.Gen Cert.KernelIdeal.L2
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## The printed index maps over the grid -/

/-- The block indices of the three input windows and the output window at every grid point. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- A grid point is below 128. -/
theorem point_lt (t : Fin cfg1.N) : t.val < 128 := t.isLt

/-- Row `p` of row block `t / 8` is a row of the array. -/
theorem row_lt (t : Fin cfg1.N) (p : Fin 1024) : 1024 * (t.val / 8) + p.val < 16384 := by
  have ht := point_lt t
  have hp := p.isLt
  omega

/-- Entry `s` of column block `t % 8` is a column of `adj`, and a row of `z`. -/
theorem col_lt (t : Fin cfg1.N) (s : Fin 2048) : 2048 * (t.val % 8) + s.val < 16384 := by
  have hs := s.isLt
  omega

/-! ## Each window's block, read off its array -/

/-- The block of `adj` at point `t`. -/
theorem iblk1_0_apply (c : Dev nD) (t : Fin cfg1.N) (p : Fin 1024) (s : Fin 2048) :
    iblk1 V c 0 t (ix2 p s)
      = V c main_arg1 (ix2 (⟨1024 * (t.val / 8) + p.val, row_lt t p⟩ : Fin 16384) (⟨2048 * (t.val % 8) + s.val, col_lt t s⟩ : Fin 16384)) := by
  obtain ⟨e0, e1, -⟩ := idx_facts1 t
  unfold iblk1
  show V c main_arg1 (((cfg1.win 0).blk t).view.emb (ix2 p s)) = V c main_arg1 _
  refine congrArg (V c main_arg1) (funext fun a => Fin.ext ?_)
  match a with
  | ⟨0, _⟩ => show win1_0.index t (0 : Fin 2) * 1024 + 1 * p.val = 1024 * (t.val / 8) + p.val; omega
  | ⟨1, _⟩ => show win1_0.index t (1 : Fin 2) * 2048 + 1 * s.val = 2048 * (t.val % 8) + s.val; omega

/-- The block of `z` at point `t`. -/
theorem iblk1_1_apply (c : Dev nD) (t : Fin cfg1.N) (s : Fin 2048) :
    iblk1 V c 1 t (ix2 s (0 : Fin 1))
      = V c main_v3 (ix2 (⟨2048 * (t.val % 8) + s.val, col_lt t s⟩ : Fin 16384) (0 : Fin 1)) := by
  obtain ⟨-, -, e0, e1, -⟩ := idx_facts1 t
  unfold iblk1
  show V c main_v3 (((cfg1.win 1).blk t).view.emb (ix2 s (0 : Fin 1))) = V c main_v3 _
  refine congrArg (V c main_v3) (funext fun a => Fin.ext ?_)
  match a with
  | ⟨0, _⟩ => show win1_1.index t (0 : Fin 2) * 2048 + 1 * s.val = 2048 * (t.val % 8) + s.val; omega
  | ⟨1, _⟩ => show win1_1.index t (1 : Fin 2) * 1 + 1 * ((0 : Fin 1) : ℕ) = ((0 : Fin 1) : ℕ); omega

/-- The bias is read whole. -/
theorem iblk1_2_apply (c : Dev nD) (t : Fin cfg1.N) (y : S1x1.Idx) : iblk1 V c 2 t y = V c main_v4 y := by
  obtain ⟨-, -, -, -, e0, e1, -⟩ := idx_facts1 t
  unfold iblk1
  show V c main_v4 (((cfg1.win 2).blk t).view.emb y) = V c main_v4 y
  refine congrArg (V c main_v4) (funext fun a => Fin.ext ?_)
  match a with
  | ⟨0, _⟩ => show win1_2.index t (0 : Fin 2) * 1 + 1 * (y 0).val = (y 0).val; omega
  | ⟨1, _⟩ => show win1_2.index t (1 : Fin 2) * 1 + 1 * (y 1).val = (y 1).val; omega

/-! ## The accumulator and the stored block on the extended reals -/

section IdealValues

open Cert.Dense ChunkSum

variable (W : (c : Dev nD) → (b : Ref sig .tc) → Buf (Elt Ideal) ((c : Thread nD τ).loc b))

/-- The adjacency as the region finds it. -/
abbrev adjA (c : Dev nD) : (⟨2, ![16384, 16384]⟩ : Shape).Idx → EReal := W c main_arg1
/-- The column `hidden · W2` the first kernel left, as the region finds it. -/
abbrev zA (c : Dev nD) : (⟨2, ![16384, 1]⟩ : Shape).Idx → EReal := W c main_v3
/-- The bias. -/
abbrev biasA (c : Dev nD) : (⟨2, ![1, 1]⟩ : Shape).Idx → EReal := W c main_v4

/-- Eight chunks of 2048 are the 16384 columns. -/
theorem h8 : (7 + 1) * 2048 = 16384 := by norm_num

/-- The accumulator at a point does not depend on how the point's number is written. -/
theorem acc1_congr (c : Dev nD) {n n' : ℕ} (e : n = n') (hn : n < cfg1.N) (hn' : n' < cfg1.N) :
    acc1 W c n hn = acc1 W c n' hn' := by subst e; rfl

/-- A product read at (p, q) is the sum over `k` of the left operand at (p, k) times the right at (k, q). -/
theorem rowsTimes_ix2 {M K N : Nat} (a : (⟨2, ![M, K]⟩ : Shape).Idx → EReal) (w : (⟨2, ![K, N]⟩ : Shape).Idx → EReal)
    (p : Fin M) (q : Fin N) : rowsTimes a w (ix2 p q) = ∑ k : Fin K, a (ix2 p k) * w (ix2 k q) := rfl

/-- The product of point `t`'s two blocks at row `p` is chunk `t % 8` of the contraction of row `R` of `adj` with
    the column `z`, where `R` is row `p` of row block `t / 8`. -/
theorem col_term (c : Dev nD) (t : Fin cfg1.N) (k : Fin (7 + 1)) (hk : t.val % 8 = k.val) (p : Fin 1024)
    (R : Fin 16384) (hR : R.val = 1024 * (t.val / 8) + p.val) :
    rowsTimes (iblk1 W c 0 t : Vec Ideal S1024x2048 .f32) (iblk1 W c 1 t : Vec Ideal S2048x1 .f32) (ix2 p (0 : Fin 1))
      = ∑ s : Fin 2048, adjA W c (ix2 R (at_ h8 k s)) * zA W c (ix2 (at_ h8 k s) (0 : Fin 1)) := by
  refine (rowsTimes_ix2 _ _ p (0 : Fin 1)).trans (Finset.sum_congr rfl fun s _ => ?_)
  have e1 : (⟨1024 * (t.val / 8) + p.val, row_lt t p⟩ : Fin 16384) = R := Fin.ext hR.symm
  have e2 : (⟨2048 * (t.val % 8) + s.val, col_lt t s⟩ : Fin 16384) = at_ h8 k s :=
    Fin.ext (by show 2048 * (t.val % 8) + s.val = k.val * 2048 + s.val; omega)
  have ha : (iblk1 W c 0 t : S1024x2048.Idx → EReal) (ix2 p s) = adjA W c (ix2 R (at_ h8 k s)) := by
    rw [iblk1_0_apply, e1, e2]
  have hz : (iblk1 W c 1 t : S2048x1.Idx → EReal) (ix2 s (0 : Fin 1)) = zA W c (ix2 (at_ h8 k s) (0 : Fin 1)) := by
    rw [iblk1_1_apply, e2]
  exact congrArg₂ (fun x y : EReal => x * y) ha hz

/-- At column block 0 the accumulator is zero plus chunk 0. -/
theorem acc1_first_apply (c : Dev nD) (t : Fin cfg1.N) (h0 : t.val % 8 = 0) (p : Fin 1024)
    (R : Fin 16384) (hR : R.val = 1024 * (t.val / 8) + p.val) :
    acc1 W c t.val t.isLt (ix2 p (0 : Fin 1))
      = 0 + ∑ s : Fin 2048, adjA W c (ix2 R (at_ h8 ⟨0, Nat.succ_pos 7⟩ s)) * zA W c (ix2 (at_ h8 ⟨0, Nat.succ_pos 7⟩ s) (0 : Fin 1)) := by
  refine (congrFun (acc1_first W c t h0) (ix2 p (0 : Fin 1))).trans ?_
  refine (TileValues.accumulate_col _ _ _ _).trans ?_
  rw [TileValues.zero_col', col_term W c t ⟨0, Nat.succ_pos 7⟩ h0 p R hR]

/-- At column block `k + 1` it is the total the point before left plus chunk `k + 1`. -/
theorem acc1_next_apply (c : Dev nD) (t : Fin cfg1.N) (k : ℕ) (hk : k + 1 < 7 + 1) (hk' : t.val % 8 = k + 1)
    (p : Fin 1024) (R : Fin 16384) (hR : R.val = 1024 * (t.val / 8) + p.val) :
    acc1 W c t.val t.isLt (ix2 p (0 : Fin 1))
      = acc1 W c (t.val - 1) (Nat.lt_of_le_of_lt (Nat.sub_le _ _) t.isLt) (ix2 p (0 : Fin 1))
        + ∑ s : Fin 2048, adjA W c (ix2 R (at_ h8 ⟨k + 1, hk⟩ s)) * zA W c (ix2 (at_ h8 ⟨k + 1, hk⟩ s) (0 : Fin 1)) := by
  refine (congrFun (acc1_next W c t (by omega)) (ix2 p (0 : Fin 1))).trans ?_
  refine (TileValues.accumulate_col _ _ _ _).trans ?_
  rw [col_term W c t ⟨k + 1, hk⟩ hk' p R hR]

/-- After column block 7 the accumulator holds the row block's rows of `adj · z`. -/
theorem acc1_last (c : Dev nD) (t : Fin cfg1.N) (ht : t.val % 8 = 7) (p : Fin 1024) :
    acc1 W c t.val t.isLt (ix2 p (0 : Fin 1))
      = rowsTimes (adjA W c) (zA W c) (ix2 (⟨1024 * (t.val / 8) + p.val, row_lt t p⟩ : Fin 16384) (0 : Fin 1)) := by
  have hN := point_lt t
  -- the points of this row block, column block `k`
  have hpt : ∀ k, k < 8 → 8 * (t.val / 8) + k < cfg1.N := fun k hk => by show _ < 128; omega
  let R : Fin 16384 := ⟨1024 * (t.val / 8) + p.val, row_lt t p⟩
  let run : ℕ → EReal := fun k => if hk : k < 8 then acc1 W c (8 * (t.val / 8) + k) (hpt k hk) (ix2 p (0 : Fin 1)) else 0
  have hfold := fold_chunks h8 (fun j : Fin 16384 => adjA W c (ix2 R j) * zA W c (ix2 j (0 : Fin 1))) run
    (by
      show (if hk : 0 < 8 then acc1 W c (8 * (t.val / 8) + 0) (hpt 0 hk) (ix2 p (0 : Fin 1)) else 0) = _
      rw [dif_pos (by omega)]
      exact acc1_first_apply W c ⟨8 * (t.val / 8) + 0, hpt 0 (by omega)⟩ (by show (8 * (t.val / 8) + 0) % 8 = 0; omega) p R
        (by show 1024 * (t.val / 8) + p.val = 1024 * ((8 * (t.val / 8) + 0) / 8) + p.val; omega))
    (fun k hk => by
      show (if h : k + 1 < 8 then acc1 W c (8 * (t.val / 8) + (k + 1)) (hpt (k + 1) h) (ix2 p (0 : Fin 1)) else 0)
        = (if h : k < 8 then acc1 W c (8 * (t.val / 8) + k) (hpt k h) (ix2 p (0 : Fin 1)) else 0) + _
      rw [dif_pos (by omega), dif_pos (by omega)]
      refine (acc1_next_apply W c ⟨8 * (t.val / 8) + (k + 1), hpt (k + 1) (by omega)⟩ k hk
        (by show (8 * (t.val / 8) + (k + 1)) % 8 = k + 1; omega) p R
        (by show 1024 * (t.val / 8) + p.val = 1024 * ((8 * (t.val / 8) + (k + 1)) / 8) + p.val; omega)).trans ?_
      exact congrArg (fun a : Vec Ideal S1024x1 .f32 => a (ix2 p (0 : Fin 1)) + _)
        (acc1_congr W c (by show 8 * (t.val / 8) + (k + 1) - 1 = 8 * (t.val / 8) + k; omega) _ _))
  have hrun : run 7 = acc1 W c t.val t.isLt (ix2 p (0 : Fin 1)) := by
    show (if hk : 7 < 8 then acc1 W c (8 * (t.val / 8) + 7) (hpt 7 hk) (ix2 p (0 : Fin 1)) else 0) = _
    rw [dif_pos (by omega)]
    exact congrFun (acc1_congr W c (by omega) _ _) (ix2 p (0 : Fin 1))
  exact hrun.symm.trans hfold

/-! ## From the stored blocks to the output array -/

/-- An index of a one-column array is its row and column 0. -/
theorem col_idx {R : Nat} (j : (⟨2, ![R, 1]⟩ : Shape).Idx) : j = ix2 (j 0 : Fin R) (0 : Fin 1) := by
  refine (eq_ix2 (n0 := R) (n1 := 1) j).trans (congrArg (ix2 (j 0 : Fin R)) (Fin.ext ?_))
  have h := idx2_lt1 (n0 := R) (n1 := 1) j
  show (j 1).val = 0
  omega

/-- What the second layer leaves in its output array: `relu (adj · z + bias)`. -/
abbrev resultA (c : Dev nD) : (⟨2, ![16384, 1]⟩ : Shape).Idx → EReal :=
  relu (fun i : (⟨2, ![16384, 1]⟩ : Shape).Idx => rowsTimes (adjA W c) (zA W c) i + biasA W c (ix2 (0 : Fin 1) (0 : Fin 1)))

/-- The block stored at column block 7, read at row `p`: the bias added to row `1024 (t / 8) + p` of `adj · z` and the
    maximum with zero taken. -/
theorem stored_apply (c : Dev nD) (t : Fin cfg1.N) (ht : t.val % 8 = 7) (p : Fin 1024) :
    k1_pay3 (F := Ideal) (acc1 W c t.val t.isLt) (iblk1 W c 2 t) (ix2 p (0 : Fin 1))
      = resultA W c (ix2 (⟨1024 * (t.val / 8) + p.val, row_lt t p⟩ : Fin 16384) (0 : Fin 1)) := by
  refine (TileValues.finish_col _ _ _).trans ?_
  show max (acc1 W c t.val t.isLt (ix2 p (0 : Fin 1)) + iblk1 W c 2 t (ix2 (0 : Fin 1) (0 : Fin 1))) _
    = max (rowsTimes (adjA W c) (zA W c) (ix2 (⟨1024 * (t.val / 8) + p.val, row_lt t p⟩ : Fin 16384) (0 : Fin 1))
        + biasA W c (ix2 (0 : Fin 1) (0 : Fin 1))) _
  rw [acc1_last W c t ht p, iblk1_2_apply]

/-- WHAT A POINT OF COLUMN BLOCK 7 WRITES BACK is its block of `relu (adj · z + bias)`. -/
theorem flushed_eq (c : Dev nD) (t : Fin cfg1.N) (hf : (cfg1.win 3).flush t = true) :
    (dat1 W c).flushed 3 t = ((cfg1.win 3).blk t).view.read (Elt Ideal) (resultA W c) := by
  have ht : t.val % 8 = 7 := (flush1_3 t).mp hf
  obtain ⟨-, -, -, -, -, -, e0, e1⟩ := idx_facts1 t
  show (cfg1.win 3).cut (grid1.coords t) ((dat1 W c).after 3 t) = _
  rw [after1_3]
  show (fun j : S1024x1.Idx => k1_pay3 (F := Ideal) (acc1 W c t.val t.isLt) (iblk1 W c 2 t) j)
    = fun j : S1024x1.Idx => resultA W c (((cfg1.win 3).blk t).view.emb j)
  funext j
  obtain ⟨p, rfl⟩ : ∃ p : Fin 1024, j = ix2 p (0 : Fin 1) := ⟨j 0, col_idx j⟩
  refine (stored_apply W c t ht p).trans (congrArg (resultA W c) (funext fun a => Fin.ext ?_))
  match a with
  | ⟨0, _⟩ => show 1024 * (t.val / 8) + p.val = win1_3.index t (0 : Fin 2) * 1024 + 1 * p.val; omega
  | ⟨1, _⟩ => show ((0 : Fin 1) : ℕ) = win1_3.index t (1 : Fin 2) * 1 + 1 * ((0 : Fin 1) : ℕ); omega

/-- An index of the output array is in point `t`'s block iff each coordinate is in the block's range on its axis. -/
theorem mem_blk3 (t : Fin cfg1.N) (i : S16384x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v5).slice (win1_3.rect t)).set ↔ _
  rw [View.set_slice_whole, Rect.mem_set_unit]
  exact Iff.rfl

/-- Row `r` of the output array is written back at column block 7 of row block `r / 1024`. -/
theorem covered (i : S16384x1.Idx) :
    ∃ t : Fin cfg1.N, (cfg1.win 3).flush t = true ∧ i ∈ ((cfg1.win 3).blk t).view.set := by
  have hi0 : (i 0).val < 16384 := (i 0).isLt
  have hi1 : (i 1).val < 1 := (i 1).isLt
  have hlt : 8 * ((i 0).val / 1024) + 7 < cfg1.N := by show _ < 128; omega
  refine ⟨⟨8 * ((i 0).val / 1024) + 7, hlt⟩, (flush1_3 _).mpr (by show (8 * ((i 0).val / 1024) + 7) % 8 = 7; omega), ?_⟩
  obtain ⟨-, -, -, -, -, -, e0, e1⟩ := idx_facts1 ⟨8 * ((i 0).val / 1024) + 7, hlt⟩
  have e0' : win1_3.index ⟨8 * ((i 0).val / 1024) + 7, hlt⟩ (0 : Fin 2) = (8 * ((i 0).val / 1024) + 7) / 8 := e0
  rw [mem_blk3]
  intro a
  match a with
  | ⟨0, _⟩ =>
    show win1_3.index ⟨8 * ((i 0).val / 1024) + 7, hlt⟩ (0 : Fin 2) * 1024 ≤ (i 0).val
      ∧ (i 0).val < win1_3.index ⟨8 * ((i 0).val / 1024) + 7, hlt⟩ (0 : Fin 2) * 1024 + 1024
    omega
  | ⟨1, _⟩ =>
    show win1_3.index ⟨8 * ((i 0).val / 1024) + 7, hlt⟩ (1 : Fin 2) * 1 ≤ (i 1).val
      ∧ (i 1).val < win1_3.index ⟨8 * ((i 0).val / 1024) + 7, hlt⟩ (1 : Fin 2) * 1 + 1
    omega

/-- THE OUTPUT ARRAY after the second layer's pipeline: `relu (adj · z + bias)` of the arrays as the region finds them. -/
theorem final_result (c : Dev nD) : (dat1 W c).arrAt 3 cfg1.N = resultA W c :=
  (dat1 W c).arrAt_eq_of_cover 3 (resultA W c) (flushed_eq W c) covered

end IdealValues

end Cert.KernelIdeal.L2V

end
-- ==== Proof.GraphConv.lean ====
/-
  The two-layer graph convolution both programs compute, as one function of the six argument arrays, on the
  extended reals:

      hidden = relu (adj · (x · W1) + b1)              -- [16384, 256]
      result = relu (adj · (hidden · W2) + b2)         -- [16384, 1]

  where `·` is the matrix product (`rowsTimes`: entry (r, j) is the sum over k of a (r, k) · w (k, j)), a bias
  vector is added to every row, and relu is the maximum with zero. The kernel computes each product `adj · z` one
  block of columns of `adj` at a time, adding the partial products into an accumulator; the reference computes
  it as one contraction. The two agree because a finite sum may be regrouped, which needs no finiteness.
-/
import proofs.«157115_j38354057954042_2_alg».proof.Proof.LibRowsTimes

noncomputable section

namespace Cert.Gcn

open Idealize.ShloMosaic Idealize.ShloMosaic.ValueIdx Cert.Dense

/-- A bias vector added to every row of a matrix: entry (r, j) becomes `z (r, j) + b j`. -/
def addBias {R C : Nat} (z : (⟨2, ![R, C]⟩ : Shape).Idx → EReal) (b : (⟨1, ![C]⟩ : Shape).Idx → EReal) :
    (⟨2, ![R, C]⟩ : Shape).Idx → EReal :=
  fun i => z i + b (ix1 (i 1 : Fin C))

/-- The hidden layer: `relu (adj · (x · W1) + b1)`. -/
def hidden (x : (⟨2, ![16384, 128]⟩ : Shape).Idx → EReal) (adj : (⟨2, ![16384, 16384]⟩ : Shape).Idx → EReal)
    (w1 : (⟨2, ![128, 256]⟩ : Shape).Idx → EReal) (b1 : (⟨1, ![256]⟩ : Shape).Idx → EReal) :
    (⟨2, ![16384, 256]⟩ : Shape).Idx → EReal :=
  relu (addBias (rowsTimes adj (rowsTimes x w1)) b1)

/-- The result: `relu (adj · (hidden · W2) + b2)`. -/
def result (x : (⟨2, ![16384, 128]⟩ : Shape).Idx → EReal) (adj : (⟨2, ![16384, 16384]⟩ : Shape).Idx → EReal)
    (w1 : (⟨2, ![128, 256]⟩ : Shape).Idx → EReal) (b1 : (⟨1, ![256]⟩ : Shape).Idx → EReal)
    (w2 : (⟨2, ![256, 1]⟩ : Shape).Idx → EReal) (b2 : (⟨1, ![1]⟩ : Shape).Idx → EReal) :
    (⟨2, ![16384, 1]⟩ : Shape).Idx → EReal :=
  relu (addBias (rowsTimes adj (rowsTimes (hidden x adj w1 b1) w2)) b2)

end Cert.Gcn

end
-- ==== Proof.KernelValue.lean ====
/-
  What the idealized program leaves in its result buffer, as the specification's function of the six argument arrays.

  Reading the boundaries backwards: the result is the second kernel's array, `relu (adj · y + b2)` where `y` is what
  that kernel finds in `main_v3`; no host operation in between writes `main_v3`, so `y` is the first kernel's array,
  `relu (adj · z + b1) · W2` where `z` is what the first kernel finds in `main_v1`; and `z` is the host's `x · W1`
  (the cast to bf16 is the identity on the extended reals), `b1` and `b2` reshaped to a row and to a [1,1] array read
  back at their one row. The matrix `adj` and `W2` reach both kernels as launched. That composite is
  `Cert.Gcn.result`, term by term.
-/
import proofs.«157115_j38354057954042_2_alg».proof.Proof.TwoLayersRun
import proofs.«157115_j38354057954042_2_alg».proof.Proof.HostStretches
import proofs.«157115_j38354057954042_2_alg».proof.Proof.FirstLayerArray
import proofs.«157115_j38354057954042_2_alg».proof.Proof.SecondLayerValue
import proofs.«157115_j38354057954042_2_alg».proof.Proof.GraphConv

set_option maxRecDepth 16384

noncomputable section

namespace Cert.KernelIdeal.WholeValue

open Cert.KernelIdeal Cert.KernelIdeal.Gen Cert.Dense
open Cert.KernelIdeal.Whole (W0 W1 W2 W3 W4 W2_arr W2_of_ne W4_arr)
open Idealize.ShloMosaic Idealize.ShloMosaic.TcCoe Idealize.ShloMosaic.ValueIdx Idealize.SL.Sem

variable (m : (ℓ : Loc nD τ sig) → Buf (Elt Ideal) ℓ)

/-! ## The arrays each kernel finds -/

/-- A buffer the first host stretch does not write is, at the first kernel's entry, as launched. -/
theorem entry1_of (c : Dev nD) (a : Ref sig .tc) (h : a ∉ hostOps0_W) : Whole.V1 m c a = m ((c : Thread nD τ).loc a) :=
  StableHlo.after_of_writes_sub hostOps0 _ hostOps0_writes h

/-- The first kernel finds `x · W1` in `main_v1`, -/
theorem entry1_z (c : Dev nD) :
    (Whole.V1 m c main_v1 : S16384x256.Idx → EReal)
      = rowsTimes (M := 16384) (K := 128) (N := 256) (m ((c : Thread nD τ).loc main_arg0)) (m ((c : Thread nD τ).loc main_arg2)) :=
  HostV.z_eq (W0 m c)

/-- and `b1`, as a row, in `main_v2`. -/
theorem entry1_b1 (c : Dev nD) (j : Fin 256) :
    Whole.V1 m c main_v2 (ix2 (0 : Fin 1) j) = (m ((c : Thread nD τ).loc main_arg3)) (ix1 j) :=
  HostV.bias1_entry (W0 m c) j

/-- The second kernel finds `adj` as launched (the first kernel only reads it), -/
theorem entry3_adj (c : Dev nD) : Whole.V3 m c main_arg1 = m ((c : Thread nD τ).loc main_arg1) :=
  (StableHlo.after_of_writes_sub hostOps1 _ hostOps1_writes (by decide : main_arg1 ∉ hostOps1_W)).trans
    ((W2_arr m c 0).trans (((L1.dat0 (Whole.V1 m) c).arrAt_in 0 rfl _).trans ((L1.A_eq0 (Whole.V1 m) c 0).trans (entry1_of m c main_arg1 (by decide)))))

/-- the first kernel's array in `main_v3`, -/
theorem entry3_y (c : Dev nD) : Whole.V3 m c main_v3 = (L1.dat0 (Whole.V1 m) c).arrAt 4 cfg0.N :=
  (StableHlo.after_of_writes_sub hostOps1 _ hostOps1_writes (by decide : main_v3 ∉ hostOps1_W)).trans (W2_arr m c 4)

/-- and `b2`, as a [1,1] array, in `main_v4`. -/
theorem entry3_b2 (c : Dev nD) :
    Whole.V3 m c main_v4 (ix2 (0 : Fin 1) (0 : Fin 1)) = (m ((c : Thread nD τ).loc main_arg5)) (ix1 (0 : Fin 1)) :=
  (HostV.bias2_entry (W2 m c)).trans
    (congrFun ((W2_of_ne m c main_arg5 (by decide)).trans (entry1_of m c main_arg5 (by decide))) (ix1 (0 : Fin 1)))

/-! ## The result -/

/-- What the second kernel finds in `main_v3` is `hidden · W2` of the launched arguments. -/
theorem entry3_y_eq (c : Dev nD) :
    (Whole.V3 m c main_v3 : (⟨2, ![16384, 1]⟩ : Shape).Idx → EReal)
      = rowsTimes (Cert.Gcn.hidden (m ((c : Thread nD τ).loc main_arg0)) (m ((c : Thread nD τ).loc main_arg1)) (m ((c : Thread nD τ).loc main_arg2)) (m ((c : Thread nD τ).loc main_arg3))) (m ((c : Thread nD τ).loc main_arg4)) := by
  rw [entry3_y m c, L1A.final_projection (Whole.V1 m) c]
  show rowsTimes (relu (fun i : (⟨2, ![16384, 256]⟩ : Shape).Idx =>
      rowsTimes (Whole.V1 m c main_arg1) (Whole.V1 m c main_v1) i + Whole.V1 m c main_v2 (ix2 (0 : Fin 1) (i 1 : Fin 256)))) (Whole.V1 m c main_arg4) = _
  rw [entry1_of m c main_arg1 (by decide), entry1_of m c main_arg4 (by decide), entry1_z m c]
  refine congrArg (fun h => rowsTimes h (m ((c : Thread nD τ).loc main_arg4))) ?_
  unfold Cert.Gcn.hidden Cert.Gcn.addBias Cert.Dense.relu
  funext i'
  beta_reduce
  rw [entry1_b1 m c (i' 1)]

/-- The result buffer ends at the specification's function of the launched argument arrays. -/
theorem result_value (c : Dev nD) :
    W4 m c (Proc.devRef .tc main_v5)
      = Cert.Gcn.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m c 3).trans ((L2V.final_result (Whole.V3 m) c).trans ?_)
  show relu (fun i : (⟨2, ![16384, 1]⟩ : Shape).Idx =>
      rowsTimes (Whole.V3 m c main_arg1) (Whole.V3 m c main_v3) i + Whole.V3 m c main_v4 (ix2 (0 : Fin 1) (0 : Fin 1))) = _
  rw [entry3_adj m c, entry3_y_eq m c, entry3_b2 m c]
  unfold Cert.Gcn.result Cert.Gcn.addBias Cert.Dense.relu
  funext i
  beta_reduce
  have hi : (ix1 (i 1 : Fin 1) : (⟨1, ![1]⟩ : Shape).Idx) = ix1 (0 : Fin 1) := congrArg ix1 (Subsingleton.elim _ _)
  rw [hi]

end Cert.KernelIdeal.WholeValue

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.ReferenceValue.lean ====
/-
  The reference's result, read on the extended reals, is the two-layer graph convolution of the specification.

  Each of the reference's four contractions is "rows times columns" (one contracted axis; the left operand read at
  (row, k), the right at (k, column)), so it is the matrix product `rowsTimes` as a whole function. A bias vector
  given a leading unit axis and repeated down the rows, then added, is `addBias`. The maximum with the repeated
  scalar word 0x00000000 is `relu`; the word is the same on both sides and is never evaluated. Composing these
  whole-function equations stage by stage gives the specification's `hidden` and `result`.
-/
import proofs.«157115_j38354057954042_2_alg».proof.Proof.Gen.ReferenceIdeal.Run
import proofs.«157115_j38354057954042_2_alg».proof.Proof.Gen.ReferenceIdeal.Read
import proofs.«157115_j38354057954042_2_alg».proof.Proof.LibRowsTimes
import proofs.«157115_j38354057954042_2_alg».proof.Proof.LibRowsCols
import proofs.«157115_j38354057954042_2_alg».proof.Proof.LibHostColumn
import proofs.«157115_j38354057954042_2_alg».proof.Proof.GraphConv

noncomputable section

namespace Cert.ReferenceIdeal.RefValue

open Cert.ReferenceIdeal Cert.ReferenceIdeal.Gen Cert.ReferenceIdeal.Read Idealize.ShloMosaic
  Idealize.ShloMosaic.ValueIdx Cert.Dense Cert.Gcn

/-! ## The four contractions are rows times columns -/

theorem rowsCols_v0 : RowsCols dot_S16384x128_S128x256_S16384x256_1_0_0_1_n_n :=
  ⟨rfl, rfl, lhs_main_v0_0, lhs_main_v0_1, rhs_main_v0_0, rhs_main_v0_1⟩

theorem rowsCols_v1 : RowsCols dot_S16384x16384_S16384x256_S16384x256_1_0_0_1_n_n :=
  ⟨rfl, rfl, lhs_main_v1_0, lhs_main_v1_1, rhs_main_v1_0, rhs_main_v1_1⟩

theorem rowsCols_v6 : RowsCols dot_S16384x256_S256x1_S16384x1_1_0_0_1_n_n :=
  ⟨rfl, rfl, lhs_main_v6_0, lhs_main_v6_1, rhs_main_v6_0, rhs_main_v6_1⟩

theorem rowsCols_v7 : RowsCols dot_S16384x16384_S16384x1_S16384x1_1_0_0_1_n_n :=
  ⟨rfl, rfl, lhs_main_v7_0, lhs_main_v7_1, rhs_main_v7_0, rhs_main_v7_1⟩

/-! ## Bias and rectifier as whole functions -/

/-- Adding a vector of `b` entries that was given a leading unit axis and repeated down `n` rows is adding it to
    every row. -/
theorem addf_row {n b : Nat} (z : (⟨2, ![n, b]⟩ : Shape).Idx → EReal) (v : (⟨1, ![b]⟩ : Shape).Idx → EReal)
    (b3 : (⟨1, ![b]⟩ : Shape).BroadcastsInDim ⟨2, ![1, b]⟩ ![1])
    (b4 : (⟨2, ![1, b]⟩ : Shape).BroadcastsInDim ⟨2, ![n, b]⟩ ![0, 1]) :
    addf (F := Ideal) (φ := .f32) z (broadcastInDim ⟨2, ![n, b]⟩ ![0, 1] b4 (broadcastInDim ⟨2, ![1, b]⟩ ![1] b3 v))
      = addBias z v := by
  funext i
  obtain ⟨p, k, rfl⟩ : ∃ p k, i = ix2 p k := ⟨i 0, i 1, eq_ix2 i⟩
  show z (ix2 p k) + _ = z (ix2 p k) + v (ix1 k)
  rw [HostColumn.row_apply]

/-- The maximum with the scalar zero word repeated over the whole shape is the rectifier. -/
theorem maximumf_zero {s : Shape} (y : s.Idx → EReal) (bc : S_.BroadcastsInDim s (![] : Fin 0 → Fin s.rank)) :
    maximumf (F := Ideal) (φ := .f32) y (broadcastInDim s ![] bc (constant (F := Ideal) S_ .f32 0x00000000#32))
      = relu y := by
  funext i
  exact congrArg (max (y i)) (broadcastInDim_apply _ bc _ i ix0 (fun a => a.elim0))

/-! ## The stages -/

variable (x0 : (⟨S16384x128, .f32⟩ : BufTy).Contents (Elt Ideal)) (x1 : (⟨S16384x16384, .f32⟩ : BufTy).Contents (Elt Ideal))
  (x2 : (⟨S128x256, .f32⟩ : BufTy).Contents (Elt Ideal)) (x3 : (⟨S256, .f32⟩ : BufTy).Contents (Elt Ideal))
  (x4 : (⟨S256x1, .f32⟩ : BufTy).Contents (Elt Ideal)) (x5 : (⟨S1, .f32⟩ : BufTy).Contents (Elt Ideal))

/-- The first layer: the reference's fifth stage is the specification's hidden layer. -/
theorem hidden_eq : val_main_v5 (F := Ideal) x0 x1 x2 x3 = hidden x0 x1 x2 x3 := by
  have h0 : val_main_v0 (F := Ideal) x0 x2 = rowsTimes x0 x2 := dotGeneral_eq rowsCols_v0 none x0 x2
  have h1 : val_main_v1 (F := Ideal) x0 x1 x2 = rowsTimes x1 (rowsTimes x0 x2) := by
    unfold val_main_v1; rw [h0]; exact dotGeneral_eq rowsCols_v1 none x1 _
  have h4 : val_main_v4 (F := Ideal) x0 x1 x2 x3 = addBias (rowsTimes x1 (rowsTimes x0 x2)) x3 := by
    unfold val_main_v4 val_main_v3 val_main_v2; rw [h1]; exact addf_row _ x3 _ _
  unfold val_main_v5 val_main_call0_v0 val_main_call0_cst
  rw [h4]
  exact maximumf_zero _ _

/-- The reference's last stage is the specification's result. -/
theorem result_eq : val_main_v11 (F := Ideal) x0 x1 x2 x3 x4 x5 = result x0 x1 x2 x3 x4 x5 := by
  have h6 : val_main_v6 (F := Ideal) x0 x1 x2 x3 x4 = rowsTimes (hidden x0 x1 x2 x3) x4 := by
    unfold val_main_v6; rw [hidden_eq]; exact dotGeneral_eq rowsCols_v6 none _ x4
  have h7 : val_main_v7 (F := Ideal) x0 x1 x2 x3 x4 = rowsTimes x1 (rowsTimes (hidden x0 x1 x2 x3) x4) := by
    unfold val_main_v7; rw [h6]; exact dotGeneral_eq rowsCols_v7 none x1 _
  have h10 : val_main_v10 (F := Ideal) x0 x1 x2 x3 x4 x5
      = addBias (rowsTimes x1 (rowsTimes (hidden x0 x1 x2 x3) x4)) x5 := by
    unfold val_main_v10 val_main_v9 val_main_v8; rw [h7]; exact addf_row _ x5 _ _
  unfold val_main_v11 val_main_call1_v0 val_main_call1_cst
  rw [h10]
  exact maximumf_zero _ _

/-- The composed term the run states for the result buffer, of the six argument arrays, is the specification's
    result. -/
theorem run_term_eq :
    maximumf (F := Ideal) (φ := .f32) (addf (Host.dotGeneral (F := Ideal) (φ₁ := .f32) (φ₂ := .f32) dot_S16384x16384_S16384x1_S16384x1_1_0_0_1_n_n none (x1) (Host.dotGeneral (F := Ideal) (φ₁ := .f32) (φ₂ := .f32) dot_S16384x256_S256x1_S16384x1_1_0_0_1_n_n none (maximumf (addf (Host.dotGeneral (F := Ideal) (φ₁ := .f32) (φ₂ := .f32) dot_S16384x16384_S16384x256_S16384x256_1_0_0_1_n_n none (x1) (Host.dotGeneral (F := Ideal) (φ₁ := .f32) (φ₂ := .f32) dot_S16384x128_S128x256_S16384x256_1_0_0_1_n_n none (x0) (x2))) (broadcastInDim S16384x256 ![0, 1] bcast_S1x256_S16384x256_0_1 (broadcastInDim S1x256 ![1] bcast_S256_S1x256_1 (x3)))) (broadcastInDim S16384x256 ![] bcast_S_S16384x256 (constant (F := Ideal) S_ .f32 0x00000000#32))) (x4))) (broadcastInDim S16384x1 ![0, 1] bcast_S1x1_S16384x1_0_1 (broadcastInDim S1x1 ![1] bcast_S1_S1x1_1 (x5)))) (broadcastInDim S16384x1 ![] bcast_S_S16384x1 (constant (F := Ideal) S_ .f32 0x00000000#32))
      = result x0 x1 x2 x3 x4 x5 :=
  (val_main_v11_eq (F := Ideal) x0 x1 x2 x3 x4 x5).trans (result_eq x0 x1 x2 x3 x4 x5)

end Cert.ReferenceIdeal.RefValue

end
-- ==== Proof.lean ====
/-
  The certificate of a two-layer graph convolution, `relu (adj · relu (adj · (x · W1) + b1) · W2 + b2)`, computed by two
  tiled kernels against its plain reference.

  Each kernel walks a grid of (row block, column block) points, adds `adj_block · z_block` into an accumulator it
  carries from point to point, zeroes it at column block 0 and, at the last column block, applies the bias and the
  rectifier (the first kernel also multiplies by `W2`) and stores the output block. Frames: both readings of the
  kernel program (word level and idealized) run to the end without a fault and leave the six argument arrays as
  launched — the host operations write only their own results, and each kernel writes only its output array —; the
  reference's frame is its generated run. The idealization rewrote nothing, so `preserves` is trivial. On the
  extended reals the idealized kernel's result buffer and the reference's are one function of the arguments
  (`Cert.Gcn.result`): the accumulated partial products are the whole product because a finite sum may be regrouped,
  and a change of float format is the identity; no finiteness of the inputs is used.
-/
import proofs.«157115_j38354057954042_2_alg».proof.Defs
import proofs.«157115_j38354057954042_2_alg».proof.Proof.Gen.Kernel
import proofs.«157115_j38354057954042_2_alg».proof.Proof.Gen.KernelIdeal
import proofs.«157115_j38354057954042_2_alg».proof.Proof.Gen.ReferenceIdeal
import proofs.«157115_j38354057954042_2_alg».proof.Proof.Gen.Pre_finite_inputs
import proofs.«157115_j38354057954042_2_alg».proof.Proof.Gen.ReferenceIdeal.Run
import proofs.«157115_j38354057954042_2_alg».proof.Proof.WordTwoLayersRun
import proofs.«157115_j38354057954042_2_alg».proof.Proof.TwoLayersRun
import proofs.«157115_j38354057954042_2_alg».proof.Proof.KernelValue
import proofs.«157115_j38354057954042_2_alg».proof.Proof.ReferenceValue

noncomputable section

namespace Cert.Proof

open Idealize.ShloMosaic Idealize.ShloMosaic.TcCoe Idealize.SL.Sem

/-- The word-level program runs to the end and leaves its arguments as launched. -/
theorem frame_word : Cert.frame_Kernel := fun m ρ _ =>
  (θ_run Cert.Kernel.defs _ _).mono (fun _ h c => (h c).2) (Cert.Kernel.Whole.run (F := Bits) m ρ)

/-- So does the idealized program, -/
theorem frame_ideal : Cert.frame_KernelIdeal := fun m ρ _ =>
  (θ_run Cert.KernelIdeal.defs _ _).mono (fun _ h c => (h c).2) (Cert.KernelIdeal.Whole.run (F := Ideal) m ρ)

/-- and the reference (its run with the result dropped). -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the specification's function of the arguments in their result
    buffers, from memories that agree on the arguments. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.WholeValue.result_value m c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.run_term_eq _ _ _ _ _ _).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
